-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x1 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S5000x64 : Shape := ⟨2, ![5000, 64]⟩
abbrev S1x1 : Shape := ⟨2, ![1, 1]⟩
abbrev S5000x1 : Shape := ⟨2, ![5000, 1]⟩
abbrev S5000 : Shape := ⟨1, ![5000]⟩

abbrev nBuf : Space → Nat
  | .hbm => 81
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .f32⟩
  | .hbm, ⟨15, _⟩ => ⟨S100000x64, .i1⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S100000x64, .i1⟩
  | .hbm, ⟨22, _⟩ => ⟨S_, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .i1⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S1200000, .f32⟩
  | .hbm, ⟨33, _⟩ => ⟨S_, .f32⟩
  | .hbm, ⟨34, _⟩ => ⟨S100000, .f32⟩
  | .hbm, ⟨35, _⟩ => ⟨S1200000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x64, .f32⟩
  | .hbm, ⟨53, _⟩ => ⟨S_, .f32⟩
  | .hbm, ⟨54, _⟩ => ⟨S100000x64, .f32⟩
  | .hbm, ⟨55, _⟩ => ⟨S1200000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S_, .i32⟩
  | .hbm, ⟨62, _⟩ => ⟨S1200000, .i32⟩
  | .hbm, ⟨63, _⟩ => ⟨S1200000, .i1⟩
  | .hbm, ⟨64, _⟩ => ⟨S_, .i32⟩
  | .hbm, ⟨65, _⟩ => ⟨S1200000, .i32⟩
  | .hbm, ⟨66, _⟩ => ⟨S1200000, .i32⟩
  | .hbm, ⟨67, _⟩ => ⟨S1200000, .i32⟩
  | .hbm, ⟨68, _⟩ => ⟨S1200000x1, .i32⟩
  | .hbm, ⟨69, _⟩ => ⟨S1200000x64, .f32⟩
  | .hbm, ⟨70, _⟩ => ⟨S_, .f32⟩
  | .hbm, ⟨71, _⟩ => ⟨S100000x64, .f32⟩
  | .hbm, ⟨72, _⟩ => ⟨S1200000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S1x64, .f32⟩
  | .hbm, ⟨77, _⟩ => ⟨S1x64, .f32⟩
  | .hbm, ⟨78, _⟩ => ⟨S1x1, .f32⟩
  | .hbm, ⟨79, _⟩ => ⟨S100000x1, .f32⟩
  | .hbm, ⟨80, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_call0_v0 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_call1_v0 : Ref sig .tc := ⟨.hbm, 23, rfl⟩
abbrev main_call0_v5 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_call0_cst_2 : Ref sig .tc := ⟨.hbm, 28, rfl⟩
abbrev main_call0_call2_v0 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_cst_1 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_2 : Ref sig .tc := ⟨.hbm, 37, rfl⟩
abbrev main_v9 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c : Ref sig .tc := ⟨.hbm, 44, rfl⟩
abbrev main_v14 : Ref sig .tc := ⟨.hbm, 45, rfl⟩
abbrev main_v15 : Ref sig .tc := ⟨.hbm, 46, rfl⟩
abbrev main_c_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_6 : Ref sig .tc := ⟨.hbm, 61, rfl⟩
abbrev main_v28 : Ref sig .tc := ⟨.hbm, 62, rfl⟩
abbrev main_v29 : Ref sig .tc := ⟨.hbm, 63, rfl⟩
abbrev main_c_7 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000x64 : S_.BroadcastsInDim S100000x64 (![] : Fin 0 → Fin S100000x64.rank)
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S64x1_S1x64_1_0 : S64x1.Transposes [1, 0] S1x64
  shapeCasts_S1_S1x1 : S1.ShapeCasts S1x1
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v25) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x1, .f32⟩
  | .hbm, ⟨9, _⟩ => ⟨S1, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S_, .f32⟩
  | .hbm, ⟨15, _⟩ => ⟨S100000x64, .i1⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S_, .f32⟩
  | .hbm, ⟨20, _⟩ => ⟨S100000x64, .f32⟩
  | .hbm, ⟨21, _⟩ => ⟨S100000x64, .i1⟩
  | .hbm, ⟨22, _⟩ => ⟨S_, .f32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .i1⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000x64, .f32⟩
  | .hbm, ⟨40, _⟩ => ⟨S_, .f32⟩
  | .hbm, ⟨41, _⟩ => ⟨S100000x64, .f32⟩
  | .hbm, ⟨42, _⟩ => ⟨S1200000x1, .i32⟩
  | .hbm, ⟨43, _⟩ => ⟨S100000x64, .f32⟩
  | .hbm, ⟨44, _⟩ => ⟨S_, .f32⟩
  | .hbm, ⟨45, _⟩ => ⟨S1200000, .f32⟩
  | .hbm, ⟨46, _⟩ => ⟨S_, .f32⟩
  | .hbm, ⟨47, _⟩ => ⟨S100000, .f32⟩
  | .hbm, ⟨48, _⟩ => ⟨S1200000x1, .i32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1200000, .i32⟩
  | .hbm, ⟨67, _⟩ => ⟨S1200000, .i1⟩
  | .hbm, ⟨68, _⟩ => ⟨S_, .i32⟩
  | .hbm, ⟨69, _⟩ => ⟨S1200000, .i32⟩
  | .hbm, ⟨70, _⟩ => ⟨S1200000, .i32⟩
  | .hbm, ⟨71, _⟩ => ⟨S1200000, .i32⟩
  | .hbm, ⟨72, _⟩ => ⟨S1200000x1, .i32⟩
  | .hbm, ⟨73, _⟩ => ⟨S1200000x64, .f32⟩
  | .hbm, ⟨74, _⟩ => ⟨S_, .f32⟩
  | .hbm, ⟨75, _⟩ => ⟨S100000x64, .f32⟩
  | .hbm, ⟨76, _⟩ => ⟨S1200000x1, .i32⟩
  | .hbm, ⟨77, _⟩ => ⟨S100000x64, .f32⟩
  | .hbm, ⟨78, _⟩ => ⟨S_, .f32⟩
  | .hbm, ⟨79, _⟩ => ⟨S1200000, .f32⟩
  | .hbm, ⟨80, _⟩ => ⟨S_, .f32⟩
  | .hbm, ⟨81, _⟩ => ⟨S100000, .f32⟩
  | .hbm, ⟨82, _⟩ => ⟨S1200000x1, .i32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | .hbm, ⟨103, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_call0_v0 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_call1_v0 : Ref sig .tc := ⟨.hbm, 23, rfl⟩
abbrev main_call0_v5 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_call0_cst_2 : Ref sig .tc := ⟨.hbm, 28, rfl⟩
abbrev main_call0_call2_v0 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_cst_3 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_call1_cst : Ref sig .tc := ⟨.hbm, 62, rfl⟩
abbrev main_call1_v0 : Ref sig .tc := ⟨.hbm, 63, rfl⟩
abbrev main_v30 : Ref sig .tc := ⟨.hbm, 64, rfl⟩
abbrev main_c_5 : Ref sig .tc := ⟨.hbm, 65, rfl⟩
abbrev main_v31 : Ref sig .tc := ⟨.hbm, 66, rfl⟩
abbrev main_v32 : Ref sig .tc := ⟨.hbm, 67, rfl⟩
abbrev main_c_6 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_cst_9 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_10 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_call2_cst : Ref sig .tc := ⟨.hbm, 96, rfl⟩
abbrev main_call2_v0 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000x64 : S_.BroadcastsInDim S100000x64 (![] : Fin 0 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel program's run, with its result named.

  The program is three stretches of host operations, the first row-block kernel, a fourth stretch, the second row-block
  kernel, and a final reshape.  Its run is the chain of these seven segments: each host stretch takes the buffers from
  one boundary's contents to the next, each kernel region leaves its arrays at what its grid's write-backs fold to and
  every other buffer untouched.  At the end every unscoped buffer holds the last boundary's contents; read at the
  result buffer this names the program's result, and read at the argument buffers it says they are unchanged.
-/
import proofs.«130286_j79912161509825_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result buffer ends at the last
    boundary's contents and the ten argument arrays end as launched. -/
theorem run_main : θ_run defs (onTc (τ := τ) (main (F := F))) ⟨m, fun _ => 0, ρ⟩ (fun r => ∀ c : Dev nD,
      r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.KRun

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.LibSageLayer.lean ====
/-
  One GraphSAGE layer and the final projection, entry by entry, on the extended reals.

  A layer sends a node's mean-aggregated neighbour features a and its own features x to
  max( Σ_k a_k·Wl(k,q) + Σ_k x_k·Wr(k,q) + b_q , 0 ).  One program adds the bias last, the other adds it between the two
  products; addition of extended reals is commutative and associative, so the two agree (`conv_eq_biasFirst`).  The mean is
  the neighbour sum divided by the clipped degree; one program divides, the other multiplies by the reciprocal it computed
  once.  Off zero the quotient x / y on the extended reals IS x · y⁻¹, and 1 / y is y⁻¹, so the two agree whenever the
  divisor is not zero (`div_eq_mul_recip`) — and a degree clipped below at 1 never is (`clip_ne_zero`).  No finiteness is
  needed anywhere.  The projection is  Σ_k h_k·w_k + b.
-/
import Idealize.ShloMosaic.PureOps.Ideal
import Idealize.ShloMosaic.Lib.ValueIdx

noncomputable section

open scoped BigOperators

namespace Cert.Sage

open Idealize.ShloMosaic Idealize.ShloMosaic.ValueIdx

/-- One output entry of a layer, the bias added last. -/
def conv {K N : ℕ} (a x : Fin K → EReal) (Wl Wr : (⟨2, ![K, N]⟩ : Shape).Idx → EReal) (b : Fin N → EReal) (q : Fin N) : EReal :=
  max (((∑ k : Fin K, a k * Wl (ix2 k q)) + ∑ k : Fin K, x k * Wr (ix2 k q)) + b q) 0

/-- The same entry with the bias added between the two products. -/
theorem conv_eq_biasFirst {K N : ℕ} (a x : Fin K → EReal) (Wl Wr : (⟨2, ![K, N]⟩ : Shape).Idx → EReal) (b : Fin N → EReal)
    (q : Fin N) :
    conv a x Wl Wr b q = max (((∑ k : Fin K, a k * Wl (ix2 k q)) + b q) + ∑ k : Fin K, x k * Wr (ix2 k q)) 0 := by
  unfold conv
  rw [add_right_comm]

/-- The final projection of a row. -/
def proj {K : ℕ} (h w : Fin K → EReal) (b0 : EReal) : EReal := (∑ k : Fin K, h k * w k) + b0

/-- Dividing by a divisor that is not zero is multiplying by its reciprocal, at the infinities too. -/
theorem div_eq_mul_recip (a M : EReal) (hM : M ≠ 0) : Ideal.div a M = a * Ideal.div 1 M := by
  unfold Ideal.div
  rw [if_neg hM, if_neg hM, one_mul]

/-- A quantity clipped below at 1 is not zero. -/
theorem clip_ne_zero (c : EReal) : max c 1 ≠ 0 :=
  ne_of_gt (lt_of_lt_of_le zero_lt_one (le_max_right c 1))

end Cert.Sage

end
-- ==== Proof.KPay.lean ====
/-
  What the two kernel bodies compute, entry by entry, on the extended reals.

  The first body takes a block of rows of the mean-aggregated features and of the node features, the two weight matrices and
  the bias row, and stores  max( a·Wl + x·Wr + b , 0 )  for each row: two matrix products into the zero splat (the
  narrowing of their operands changes no value), their sum, the bias row laid along the rows, the maximum with 0.  The
  second body computes the same rectified rows, multiplies each by the projection row, sums along the row, and adds the
  scalar bias.
-/
import proofs.«130286_j79912161509825_1_alg».proof.Proof.Gen.KernelIdeal.Skeleton
import proofs.«130286_j79912161509825_1_alg».proof.Proof.LibPlainMatmul
import proofs.«130286_j79912161509825_1_alg».proof.Proof.LibKeepdims
import proofs.«130286_j79912161509825_1_alg».proof.Proof.LibRowSumZero
import proofs.«130286_j79912161509825_1_alg».proof.Proof.LibSageLayer
import Idealize.ShloMosaic.Lib.Pipeline.Value
import Idealize.ShloMosaic.Lib.ValueLayout
import Idealize.ShloMosaic.Lib.ValueIdx

noncomputable section

open scoped BigOperators

namespace Cert.KernelIdeal.KPay

open Cert.KernelIdeal Cert.KernelIdeal.Gen Idealize.ShloMosaic Idealize.ShloMosaic.ValueIdx

/-- Row `p` of a matrix, as a vector. -/
def rowOf {R K : ℕ} (x : (⟨2, ![R, K]⟩ : Shape).Idx → EReal) (p : Fin R) : Fin K → EReal := fun k => x (ix2 p k)

theorem zero_word : FloatOps.ofBits (F := Ideal) .f32 0x00000000#32 = (0 : EReal) := by
  rw [Ideal.ofBits_def, Ideal.ofBits_zero_f32]

/-- The rectified layer on a block of 5000 rows, at (p, q). -/
theorem layer_apply (x0 x1 : Vec Ideal S5000x64 .f32) (x2 x4 : Vec Ideal S64x64 .f32) (x3 : Vec Ideal S1x64 .f32)
    (p : Fin 5000) (q : Fin 64) :
    k0_pay1 x0 x1 x2 x4 x3 (ix2 p q) = Sage.conv (rowOf x0 p) (rowOf x1 p) x2 x4 (rowOf x3 0) q := by
  unfold k0_pay1
  simp only [shapeCast_self]
  have e1 := Cert.PlainMatmul.matmul_zero_apply dot_S5000x64_S64x64_S5000x64_1_0_0_1_n_n_wf none
    (truncf (F := Ideal) .bf16 x0 bitsLt_bf16_f32) (truncf (F := Ideal) .bf16 x2 bitsLt_bf16_f32) p q
  have e2 := Cert.PlainMatmul.matmul_zero_apply dot_S5000x64_S64x64_S5000x64_1_0_0_1_n_n_wf none
    (truncf (F := Ideal) .bf16 x1 bitsLt_bf16_f32) (truncf (F := Ideal) .bf16 x4 bitsLt_bf16_f32) p q
  have e3 : broadcastTo S5000x64 x3 broadcasts_S1x64_S5000x64 (ix2 p q) = x3 (ix2 (0 : Fin 1) q) :=
    broadcastTo_1b_ab_apply x3 broadcasts_S1x64_S5000x64 p q
  exact congrArg₂ max (congrArg₂ (· + ·) (congrArg₂ (· + ·) e1 e2) e3) zero_word

/-- The second body is the first body's rectified rows, multiplied by the projection row, summed along the row, plus the
    scalar bias: the same operations, by unfolding. -/
theorem pay1_eq (x0 x1 : Vec Ideal S5000x64 .f32) (x2 x4 : Vec Ideal S64x64 .f32) (x3 x5 : Vec Ideal S1x64 .f32)
    (x6 : Vec Ideal S1x1 .f32) :
    k1_pay1 x0 x1 x2 x4 x3 x5 x6
      = addf (shapeCast S5000x1 (multiReduction .add [1] S5000
            (mulf (k0_pay1 x0 x1 x2 x4 x3) (broadcastTo S5000x64 (shapeCast S1x64 x5 shapeCasts_S1x64_S1x64) broadcasts_S1x64_S5000x64))
            0x00000000#32 reduces_S5000x64_S5000 (.inl rfl) rfl) shapeCasts_S5000_S5000x1)
          (broadcastTo S5000x1 (shapeCast S1x1 x6 shapeCasts_S1x1_S1x1) broadcasts_S1x1_S5000x1) := rfl

/-- The projected layer on a block of 5000 rows, at (p, 0). -/
theorem proj_apply (x0 x1 : Vec Ideal S5000x64 .f32) (x2 x4 : Vec Ideal S64x64 .f32) (x3 x5 : Vec Ideal S1x64 .f32)
    (x6 : Vec Ideal S1x1 .f32) (p : Fin 5000) (u : Fin 1) :
    k1_pay1 x0 x1 x2 x4 x3 x5 x6 (ix2 p u)
      = Sage.proj (Sage.conv (rowOf x0 p) (rowOf x1 p) x2 x4 (rowOf x3 0)) (rowOf x5 0) (x6 (ix2 (0 : Fin 1) (0 : Fin 1))) := by
  rw [pay1_eq]
  simp only [shapeCast_self]
  have e1 : shapeCast S5000x1 (multiReduction (F := Ideal) .add [1] S5000
        (mulf (k0_pay1 x0 x1 x2 x4 x3) (broadcastTo S5000x64 x5 broadcasts_S1x64_S5000x64))
        0x00000000#32 reduces_S5000x64_S5000 (.inl rfl) rfl) shapeCasts_S5000_S5000x1 (ix2 p u)
      = ∑ k : Fin 64, Sage.conv (rowOf x0 p) (rowOf x1 p) x2 x4 (rowOf x3 0) k * x5 (ix2 (0 : Fin 1) k) := by
    refine (Cert.Keepdims.shapeCast_a_a1_apply _ shapeCasts_S5000_S5000x1 p u).trans ?_
    refine (Cert.RowSumZero.rowSum_zero_apply _ reduces_S5000x64_S5000 (.inl rfl) rfl p).trans ?_
    refine Finset.sum_congr rfl fun k _ => ?_
    exact congrArg₂ (· * ·) (layer_apply x0 x1 x2 x4 x3 p k) (broadcastTo_1b_ab_apply x5 broadcasts_S1x64_S5000x64 p k)
  have e2 : broadcastTo S5000x1 x6 broadcasts_S1x1_S5000x1 (ix2 p u) = x6 (ix2 (0 : Fin 1) (0 : Fin 1)) := by
    refine (broadcastTo_1b_ab_apply x6 broadcasts_S1x1_S5000x1 p u).trans ?_
    exact congrArg x6 (by rw [Subsingleton.elim u 0])
  exact congrArg₂ (· + ·) e1 e2

end Cert.KernelIdeal.KPay

end
-- ==== Proof.KBlocks.lean ====
/-
  From blocks to arrays: what each of the two row-block kernels leaves in its output array.

  Both kernels run over twenty blocks of 5000 consecutive rows.  At block t the row windows hold rows 5000·t … 5000·t + 4999
  of their arrays and the weight, bias and projection windows hold their whole arrays, so what the body stores at (p, q) is
  the layer's entry for row 5000·t + p — an entry that depends on that row only.  The twenty output blocks tile the output
  array, so it ends as one function of the input arrays: `G1` (a rectified layer) for the first kernel, `G2` (a rectified
  layer followed by the projection) for the second.
-/
import proofs.«130286_j79912161509825_1_alg».proof.Proof.Gen.KernelIdeal.Frame
import proofs.«130286_j79912161509825_1_alg».proof.Proof.KPay
import Idealize.ShloMosaic.Lib.Pipeline.Value

noncomputable section

open scoped BigOperators

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two array-level functions -/

/-- The first kernel's output: the rectified layer of row (i 0), at column (i 1). -/
def G1 (A X : S100000x64.Idx → EReal) (Wl : S64x64.Idx → EReal) (b : S1x64.Idx → EReal) (Wr : S64x64.Idx → EReal) :
    S100000x64.Idx → EReal :=
  fun i => Sage.conv (KPay.rowOf A (i 0)) (KPay.rowOf X (i 0)) Wl Wr (KPay.rowOf b 0) (i 1)

/-- The second kernel's output: the rectified layer of row (i 0) contracted with the projection row, plus the bias. -/
def G2 (A H : S100000x64.Idx → EReal) (Wl : S64x64.Idx → EReal) (b : S1x64.Idx → EReal) (Wr : S64x64.Idx → EReal)
    (w : S1x64.Idx → EReal) (b0 : S1x1.Idx → EReal) : S100000x1.Idx → EReal :=
  fun i => Sage.proj (Sage.conv (KPay.rowOf A (i 0)) (KPay.rowOf H (i 0)) Wl Wr (KPay.rowOf b 0)) (KPay.rowOf w 0)
    (b0 (ix2 (0 : Fin 1) (0 : Fin 1)))

/-- A block's layer entry is the array's: the block's rows are the array's rows from `r - p` on, the other windows whole. -/
theorem conv_block (A X : S100000x64.Idx → EReal) (Wl : S64x64.Idx → EReal) (b : S1x64.Idx → EReal) (Wr : S64x64.Idx → EReal)
    (x0 x1 : Vec Ideal S5000x64 .f32) (x2 x4 : Vec Ideal S64x64 .f32) (x3 : Vec Ideal S1x64 .f32)
    (r : Fin 100000) (p : Fin 5000)
    (h0 : ∀ k : Fin 64, x0 (ix2 p k) = A (ix2 r k)) (h1 : ∀ k : Fin 64, x1 (ix2 p k) = X (ix2 r k))
    (h2 : x2 = Wl) (h4 : x4 = Wr) (h3 : x3 = b) :
    Sage.conv (KPay.rowOf x0 p) (KPay.rowOf x1 p) x2 x4 (KPay.rowOf x3 0)
      = Sage.conv (KPay.rowOf A r) (KPay.rowOf X r) Wl Wr (KPay.rowOf b 0) := by
  subst h2 h4 h3
  have e0 : KPay.rowOf x0 p = KPay.rowOf A r := funext h0
  have e1 : KPay.rowOf x1 p = KPay.rowOf X r := funext h1
  rw [e0, e1]

/-! ## The first kernel -/

/-- The printed index maps over the grid: the row windows follow the point, the others stay at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) (p : Fin 5000) : t.val * 5000 + p.val < 100000 := by
  have h : t.val < 20 := lt_of_lt_of_eq t.isLt N_0
  have := p.isLt
  omega

/-- Row window 0's block at point t: rows 5000·t … of its array. -/
theorem blk0_0 (c : Dev nD) (t : Fin cfg0.N) (p : Fin 5000) (k : Fin 64) :
    (iblk0 V c 0 t : Vec Ideal S5000x64 .f32) (ix2 p k)
      = (V c (Pipeline.arrRef spec0 0) : S100000x64.Idx → EReal) (ix2 ⟨t.val * 5000 + p.val, lt0 t p⟩ k) := by
  unfold iblk0
  rw [View.read_apply]
  refine congrArg (V c (Pipeline.arrRef spec0 0) : S100000x64.Idx → EReal) ?_
  funext a
  apply Fin.ext
  match a with
  | ⟨0, _⟩ => show win0_0.index t (0 : Fin 2) * 5000 + 1 * p.val = t.val * 5000 + p.val; rw [(idx0 t).1]; omega
  | ⟨1, _⟩ => show win0_0.index t (1 : Fin 2) * 64 + 1 * k.val = k.val; rw [(idx0 t).2.1]; omega

/-- Row window 1's block at point t. -/
theorem blk0_1 (c : Dev nD) (t : Fin cfg0.N) (p : Fin 5000) (k : Fin 64) :
    (iblk0 V c 1 t : Vec Ideal S5000x64 .f32) (ix2 p k)
      = (V c (Pipeline.arrRef spec0 1) : S100000x64.Idx → EReal) (ix2 ⟨t.val * 5000 + p.val, lt0 t p⟩ k) := by
  unfold iblk0
  rw [View.read_apply]
  refine congrArg (V c (Pipeline.arrRef spec0 1) : S100000x64.Idx → EReal) ?_
  funext a
  apply Fin.ext
  match a with
  | ⟨0, _⟩ => show win0_1.index t (0 : Fin 2) * 5000 + 1 * p.val = t.val * 5000 + p.val; rw [(idx0 t).2.2.1]; omega
  | ⟨1, _⟩ => show win0_1.index t (1 : Fin 2) * 64 + 1 * k.val = k.val; rw [(idx0 t).2.2.2.1]; omega

/-- The weight and bias windows hold their whole arrays at every point. -/
theorem blk0_2 (c : Dev nD) (t : Fin cfg0.N) :
    (iblk0 V c 2 t : Vec Ideal S64x64 .f32) = (V c (Pipeline.arrRef spec0 2) : S64x64.Idx → EReal) := by
  funext y
  unfold iblk0
  rw [View.read_apply]
  refine congrArg (V c (Pipeline.arrRef spec0 2) : S64x64.Idx → EReal) ?_
  funext a
  apply Fin.ext
  match a with
  | ⟨0, _⟩ => show win0_2.index t (0 : Fin 2) * 64 + 1 * (y 0).val = (y 0).val; rw [(idx0 t).2.2.2.2.1]; omega
  | ⟨1, _⟩ => show win0_2.index t (1 : Fin 2) * 64 + 1 * (y 1).val = (y 1).val; rw [(idx0 t).2.2.2.2.2.1]; omega

theorem blk0_3 (c : Dev nD) (t : Fin cfg0.N) :
    (iblk0 V c 3 t : Vec Ideal S1x64 .f32) = (V c (Pipeline.arrRef spec0 3) : S1x64.Idx → EReal) := by
  funext y
  unfold iblk0
  rw [View.read_apply]
  refine congrArg (V c (Pipeline.arrRef spec0 3) : S1x64.Idx → EReal) ?_
  funext a
  apply Fin.ext
  match a with
  | ⟨0, _⟩ => show win0_3.index t (0 : Fin 2) * 1 + 1 * (y 0).val = (y 0).val; rw [(idx0 t).2.2.2.2.2.2.1]; omega
  | ⟨1, _⟩ => show win0_3.index t (1 : Fin 2) * 64 + 1 * (y 1).val = (y 1).val; rw [(idx0 t).2.2.2.2.2.2.2.1]; omega

theorem blk0_4 (c : Dev nD) (t : Fin cfg0.N) :
    (iblk0 V c 4 t : Vec Ideal S64x64 .f32) = (V c (Pipeline.arrRef spec0 4) : S64x64.Idx → EReal) := by
  funext y
  unfold iblk0
  rw [View.read_apply]
  refine congrArg (V c (Pipeline.arrRef spec0 4) : S64x64.Idx → EReal) ?_
  funext a
  apply Fin.ext
  match a with
  | ⟨0, _⟩ => show win0_4.index t (0 : Fin 2) * 64 + 1 * (y 0).val = (y 0).val; rw [(idx0 t).2.2.2.2.2.2.2.2.1]; omega
  | ⟨1, _⟩ => show win0_4.index t (1 : Fin 2) * 64 + 1 * (y 1).val = (y 1).val; rw [(idx0 t).2.2.2.2.2.2.2.2.2.1]; omega

/-- The first kernel's output array as the region finds its inputs. -/
abbrev out1 (c : Dev nD) : S100000x64.Idx → EReal :=
  G1 (V c (Pipeline.arrRef spec0 0)) (V c (Pipeline.arrRef spec0 1)) (V c (Pipeline.arrRef spec0 2))
    (V c (Pipeline.arrRef spec0 3)) (V c (Pipeline.arrRef spec0 4))

/-- What point t writes back is block t of `out1`. -/
theorem flushed0 (c : Dev nD) (t : Fin cfg0.N) :
    (dat0 V c).flushed 5 t = ((cfg0.win 5).blk t).view.read (Elt Ideal) (out1 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have he : ((cfg0.win 5).blk t).view.emb (ix2 p q) = (ix2 ⟨t.val * 5000 + p.val, lt0 t p⟩ q : S100000x64.Idx) := by
    funext a
    apply Fin.ext
    match a with
    | ⟨0, _⟩ => show win0_5.index t (0 : Fin 2) * 5000 + 1 * p.val = t.val * 5000 + p.val; rw [(idx0 t).2.2.2.2.2.2.2.2.2.2.1]; omega
    | ⟨1, _⟩ => show win0_5.index t (1 : Fin 2) * 64 + 1 * q.val = q.val; rw [(idx0 t).2.2.2.2.2.2.2.2.2.2.2]; omega
  show k0_pay1 (iblk0 V c 0 t) (iblk0 V c 1 t) (iblk0 V c 2 t) (iblk0 V c 4 t) (iblk0 V c 3 t) (ix2 p q)
    = out1 V c (((cfg0.win 5).blk t).view.emb (ix2 p q))
  rw [he]
  refine (KPay.layer_apply (iblk0 V c 0 t) (iblk0 V c 1 t) (iblk0 V c 2 t) (iblk0 V c 4 t) (iblk0 V c 3 t) p q).trans ?_
  exact congrFun (conv_block (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 4 t) (iblk0 V c 3 t) ⟨t.val * 5000 + p.val, lt0 t p⟩ p
    (blk0_0 V c t p) (blk0_1 V c t p) (blk0_2 V c t) (blk0_4 V c t) (blk0_3 V c t)) q

/-- An index of the output is in point t's block iff each coordinate is in the block's range. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v27).slice (win0_5.rect t)).set ↔ _
  rw [View.set_slice_whole, Rect.mem_set_unit]
  exact Iff.rfl

/-- The twenty blocks cover the output array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [mem_blk0]
  intro a
  match a with
  | ⟨0, _⟩ =>
    show win0_5.index _ (0 : Fin 2) * 5000 ≤ (i 0).val ∧ (i 0).val < win0_5.index _ (0 : Fin 2) * 5000 + 5000
    rw [(idx0 _).2.2.2.2.2.2.2.2.2.2.1]
    show (i 0).val / 5000 * 5000 ≤ (i 0).val ∧ (i 0).val < (i 0).val / 5000 * 5000 + 5000
    omega
  | ⟨1, _⟩ =>
    show win0_5.index _ (1 : Fin 2) * 64 ≤ (i 1).val ∧ (i 1).val < win0_5.index _ (1 : Fin 2) * 64 + 64
    rw [(idx0 _).2.2.2.2.2.2.2.2.2.2.2]
    omega

/-- The first kernel's output array after the region. -/
theorem final0 (c : Dev nD) : (dat0 V c).arrAt 5 cfg0.N = out1 V c :=
  (dat0 V c).arrAt_eq_of_cover 5 (out1 V c) (fun t _ => flushed0 V c t) cover0

/-! ## The second kernel -/

/-- The printed index maps over the grid: the row windows follow the point, the others stay at block 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

theorem lt1 (t : Fin cfg1.N) (p : Fin 5000) : t.val * 5000 + p.val < 100000 := by
  have h : t.val < 20 := lt_of_lt_of_eq t.isLt N_1
  have := p.isLt
  omega

/-- Row window 0's block at point t: rows 5000·t … of its array. -/
theorem blk1_0 (c : Dev nD) (t : Fin cfg1.N) (p : Fin 5000) (k : Fin 64) :
    (iblk1 V c 0 t : Vec Ideal S5000x64 .f32) (ix2 p k)
      = (V c (Pipeline.arrRef spec1 0) : S100000x64.Idx → EReal) (ix2 ⟨t.val * 5000 + p.val, lt1 t p⟩ k) := by
  unfold iblk1
  rw [View.read_apply]
  refine congrArg (V c (Pipeline.arrRef spec1 0) : S100000x64.Idx → EReal) ?_
  funext a
  apply Fin.ext
  match a with
  | ⟨0, _⟩ => show win1_0.index t (0 : Fin 2) * 5000 + 1 * p.val = t.val * 5000 + p.val; rw [(idx1 t).1]; omega
  | ⟨1, _⟩ => show win1_0.index t (1 : Fin 2) * 64 + 1 * k.val = k.val; rw [(idx1 t).2.1]; omega

/-- Row window 1's block at point t: rows 5000·t … of its array. -/
theorem blk1_1 (c : Dev nD) (t : Fin cfg1.N) (p : Fin 5000) (k : Fin 64) :
    (iblk1 V c 1 t : Vec Ideal S5000x64 .f32) (ix2 p k)
      = (V c (Pipeline.arrRef spec1 1) : S100000x64.Idx → EReal) (ix2 ⟨t.val * 5000 + p.val, lt1 t p⟩ k) := by
  unfold iblk1
  rw [View.read_apply]
  refine congrArg (V c (Pipeline.arrRef spec1 1) : S100000x64.Idx → EReal) ?_
  funext a
  apply Fin.ext
  match a with
  | ⟨0, _⟩ => show win1_1.index t (0 : Fin 2) * 5000 + 1 * p.val = t.val * 5000 + p.val; rw [(idx1 t).2.2.1]; omega
  | ⟨1, _⟩ => show win1_1.index t (1 : Fin 2) * 64 + 1 * k.val = k.val; rw [(idx1 t).2.2.2.1]; omega

theorem blk1_2 (c : Dev nD) (t : Fin cfg1.N) :
    (iblk1 V c 2 t : Vec Ideal S64x64 .f32) = (V c (Pipeline.arrRef spec1 2) : S64x64.Idx → EReal) := by
  funext y
  unfold iblk1
  rw [View.read_apply]
  refine congrArg (V c (Pipeline.arrRef spec1 2) : S64x64.Idx → EReal) ?_
  funext a
  apply Fin.ext
  match a with
  | ⟨0, _⟩ => show win1_2.index t (0 : Fin 2) * 64 + 1 * (y 0).val = (y 0).val; rw [(idx1 t).2.2.2.2.1]; omega
  | ⟨1, _⟩ => show win1_2.index t (1 : Fin 2) * 64 + 1 * (y 1).val = (y 1).val; rw [(idx1 t).2.2.2.2.2.1]; omega

theorem blk1_3 (c : Dev nD) (t : Fin cfg1.N) :
    (iblk1 V c 3 t : Vec Ideal S1x64 .f32) = (V c (Pipeline.arrRef spec1 3) : S1x64.Idx → EReal) := by
  funext y
  unfold iblk1
  rw [View.read_apply]
  refine congrArg (V c (Pipeline.arrRef spec1 3) : S1x64.Idx → EReal) ?_
  funext a
  apply Fin.ext
  match a with
  | ⟨0, _⟩ => show win1_3.index t (0 : Fin 2) * 1 + 1 * (y 0).val = (y 0).val; rw [(idx1 t).2.2.2.2.2.2.1]; omega
  | ⟨1, _⟩ => show win1_3.index t (1 : Fin 2) * 64 + 1 * (y 1).val = (y 1).val; rw [(idx1 t).2.2.2.2.2.2.2.1]; omega

theorem blk1_4 (c : Dev nD) (t : Fin cfg1.N) :
    (iblk1 V c 4 t : Vec Ideal S64x64 .f32) = (V c (Pipeline.arrRef spec1 4) : S64x64.Idx → EReal) := by
  funext y
  unfold iblk1
  rw [View.read_apply]
  refine congrArg (V c (Pipeline.arrRef spec1 4) : S64x64.Idx → EReal) ?_
  funext a
  apply Fin.ext
  match a with
  | ⟨0, _⟩ => show win1_4.index t (0 : Fin 2) * 64 + 1 * (y 0).val = (y 0).val; rw [(idx1 t).2.2.2.2.2.2.2.2.1]; omega
  | ⟨1, _⟩ => show win1_4.index t (1 : Fin 2) * 64 + 1 * (y 1).val = (y 1).val; rw [(idx1 t).2.2.2.2.2.2.2.2.2.1]; omega

theorem blk1_5 (c : Dev nD) (t : Fin cfg1.N) :
    (iblk1 V c 5 t : Vec Ideal S1x64 .f32) = (V c (Pipeline.arrRef spec1 5) : S1x64.Idx → EReal) := by
  funext y
  unfold iblk1
  rw [View.read_apply]
  refine congrArg (V c (Pipeline.arrRef spec1 5) : S1x64.Idx → EReal) ?_
  funext a
  apply Fin.ext
  match a with
  | ⟨0, _⟩ => show win1_5.index t (0 : Fin 2) * 1 + 1 * (y 0).val = (y 0).val; rw [(idx1 t).2.2.2.2.2.2.2.2.2.2.1]; omega
  | ⟨1, _⟩ => show win1_5.index t (1 : Fin 2) * 64 + 1 * (y 1).val = (y 1).val; rw [(idx1 t).2.2.2.2.2.2.2.2.2.2.2.1]; omega

theorem blk1_6 (c : Dev nD) (t : Fin cfg1.N) :
    (iblk1 V c 6 t : Vec Ideal S1x1 .f32) = (V c (Pipeline.arrRef spec1 6) : S1x1.Idx → EReal) := by
  funext y
  unfold iblk1
  rw [View.read_apply]
  refine congrArg (V c (Pipeline.arrRef spec1 6) : S1x1.Idx → EReal) ?_
  funext a
  apply Fin.ext
  match a with
  | ⟨0, _⟩ => show win1_6.index t (0 : Fin 2) * 1 + 1 * (y 0).val = (y 0).val; rw [(idx1 t).2.2.2.2.2.2.2.2.2.2.2.2.1]; omega
  | ⟨1, _⟩ => show win1_6.index t (1 : Fin 2) * 1 + 1 * (y 1).val = (y 1).val; rw [(idx1 t).2.2.2.2.2.2.2.2.2.2.2.2.2.1]; omega

/-- The second kernel's output array as the region finds its inputs. -/
abbrev out2 (c : Dev nD) : S100000x1.Idx → EReal :=
  G2 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (V c (Pipeline.arrRef spec1 6))

/-- What point t writes back is block t of `out2`. -/
theorem flushed1 (c : Dev nD) (t : Fin cfg1.N) :
    (dat1 V c).flushed 7 t = ((cfg1.win 7).blk t).view.read (Elt Ideal) (out2 V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S1x1) hz]
  funext j
  obtain ⟨p, u, rfl⟩ : ∃ (p : Fin 5000) (u : Fin 1), j = ix2 p u := ⟨j 0, j 1, eq_ix2 j⟩
  have he : ((cfg1.win 7).blk t).view.emb (ix2 p u) = (ix2 ⟨t.val * 5000 + p.val, lt1 t p⟩ u : S100000x1.Idx) := by
    funext a
    apply Fin.ext
    match a with
    | ⟨0, _⟩ => show win1_7.index t (0 : Fin 2) * 5000 + 1 * p.val = t.val * 5000 + p.val; rw [(idx1 t).2.2.2.2.2.2.2.2.2.2.2.2.2.2.1]; omega
    | ⟨1, _⟩ => show win1_7.index t (1 : Fin 2) * 1 + 1 * u.val = u.val; rw [(idx1 t).2.2.2.2.2.2.2.2.2.2.2.2.2.2.2]; omega
  show k1_pay1 (iblk1 V c 0 t) (iblk1 V c 1 t) (iblk1 V c 2 t) (iblk1 V c 4 t) (iblk1 V c 3 t) (iblk1 V c 5 t) (iblk1 V c 6 t) (ix2 p u)
    = out2 V c (((cfg1.win 7).blk t).view.emb (ix2 p u))
  rw [he]
  refine (KPay.proj_apply (iblk1 V c 0 t) (iblk1 V c 1 t) (iblk1 V c 2 t) (iblk1 V c 4 t) (iblk1 V c 3 t) (iblk1 V c 5 t) (iblk1 V c 6 t) p u).trans ?_
  show Sage.proj (Sage.conv (KPay.rowOf (iblk1 V c 0 t) p) (KPay.rowOf (iblk1 V c 1 t) p) (iblk1 V c 2 t) (iblk1 V c 4 t) (KPay.rowOf (iblk1 V c 3 t) 0))
      (KPay.rowOf (iblk1 V c 5 t) 0) ((iblk1 V c 6 t) (ix2 (0 : Fin 1) (0 : Fin 1)))
    = Sage.proj (Sage.conv (KPay.rowOf (V c (Pipeline.arrRef spec1 0)) ⟨t.val * 5000 + p.val, lt1 t p⟩) (KPay.rowOf (V c (Pipeline.arrRef spec1 1)) ⟨t.val * 5000 + p.val, lt1 t p⟩)
        (V c (Pipeline.arrRef spec1 2)) (V c (Pipeline.arrRef spec1 4)) (KPay.rowOf (V c (Pipeline.arrRef spec1 3)) 0)) (KPay.rowOf (V c (Pipeline.arrRef spec1 5)) 0) ((V c (Pipeline.arrRef spec1 6)) (ix2 (0 : Fin 1) (0 : Fin 1)))
  rw [conv_block (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 4 t) (iblk1 V c 3 t) ⟨t.val * 5000 + p.val, lt1 t p⟩ p
    (blk1_0 V c t p) (blk1_1 V c t p) (blk1_2 V c t) (blk1_4 V c t) (blk1_3 V c t), blk1_5 V c t, blk1_6 V c t]

/-- An index of the output is in point t's block iff each coordinate is in the block's range. -/
theorem mem_blk1 (t : Fin cfg1.N) (i : S100000x1.Idx) :
    i ∈ ((cfg1.win 7).blk t).view.set ↔ ∀ a : Fin 2, win1_7.index t a * S5000x1.size a ≤ (i a).val
      ∧ (i a).val < win1_7.index t a * S5000x1.size a + S5000x1.size a := by
  show i ∈ ((View.whole main_v43).slice (win1_7.rect t)).set ↔ _
  rw [View.set_slice_whole, Rect.mem_set_unit]
  exact Iff.rfl

/-- The twenty blocks cover the output array. -/
theorem cover1 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_7 _, ?_⟩
  rw [mem_blk1]
  intro a
  match a with
  | ⟨0, _⟩ =>
    show win1_7.index _ (0 : Fin 2) * 5000 ≤ (i 0).val ∧ (i 0).val < win1_7.index _ (0 : Fin 2) * 5000 + 5000
    rw [(idx1 _).2.2.2.2.2.2.2.2.2.2.2.2.2.2.1]
    show (i 0).val / 5000 * 5000 ≤ (i 0).val ∧ (i 0).val < (i 0).val / 5000 * 5000 + 5000
    omega
  | ⟨1, _⟩ =>
    show win1_7.index _ (1 : Fin 2) * 1 ≤ (i 1).val ∧ (i 1).val < win1_7.index _ (1 : Fin 2) * 1 + 1
    rw [(idx1 _).2.2.2.2.2.2.2.2.2.2.2.2.2.2.2]
    omega

/-- The second kernel's output array after the region. -/
theorem final1 (c : Dev nD) : (dat1 V c).arrAt 7 cfg1.N = out2 V c :=
  (dat1 V c).arrAt_eq_of_cover 7 (out2 V c) (fun t _ => flushed1 V c t) cover1

end Cert.KernelIdeal.KBlocks

end
-- ==== Proof.RefFns.lean ====
/-
  The pure functions of the graph program: what each stretch of host operations computes, as functions of arrays.

  `clean` replaces not-a-number, +inf and -inf entries of the features by 0, the largest and the smallest finite number.
  `edgeRow0` / `edgeRow1` are the two rows of the edge array (sources, targets); a negative source index is shifted by the
  number of nodes (`srcCol`).  `aggr X s d` gathers the rows X[s] and adds them up at their targets d, from zero;
  `cnt d` adds a one per edge at its target, and `deg d` clips that count below at one.  `layerOf A D X Wl b Wr` is the
  rectified  (A / D)·Wl + b + X·Wr  with the per-node divisor D laid along the columns and the bias b along the rows;
  `tailOf` is that layer followed by the projection onto one column plus the scalar bias, flattened to a vector.
-/
import proofs.«130286_j79912161509825_1_alg».proof.ReferenceIdeal
import proofs.«130286_j79912161509825_1_alg».proof.Proof.Gen.ReferenceIdeal

noncomputable section

namespace Cert.ReferenceIdeal.Fns

open Cert.ReferenceIdeal Cert.ReferenceIdeal.Gen Idealize.ShloMosaic Idealize.ShloMosaic.TcCoe

variable {F : FTy → Type} [FloatOps F]

/-- The features with not-a-number, +inf and -inf entries replaced. -/
def clean (x : (⟨S100000x64, .f32⟩ : BufTy).Contents (Elt F)) : (⟨S100000x64, .f32⟩ : BufTy).Contents (Elt F) :=
  let v2 : (⟨S100000x64, .f32⟩ : BufTy).Contents (Elt F) :=
    select (cmpf .une x x) (broadcastInDim S100000x64 ![] bcast_S_S100000x64 (id (constant S_ .f32 0x00000000#32))) x
  let v5 : (⟨S100000x64, .f32⟩ : BufTy).Contents (Elt F) :=
    select (cmpf .oeq v2 (broadcastInDim S100000x64 ![] bcast_S_S100000x64 (constant S_ .f32 0x7F800000#32)))
      (broadcastInDim S100000x64 ![] bcast_S_S100000x64 (constant S_ .f32 0x7F7FFFFF#32)) v2
  select (cmpf .oeq v5 (broadcastInDim S100000x64 ![] bcast_S_S100000x64 (constant S_ .f32 0xFF800000#32)))
    (broadcastInDim S100000x64 ![] bcast_S_S100000x64 (constant S_ .f32 0xFF7FFFFF#32)) v5

/-- The edge array's first row: the source of every edge. -/
def edgeRow0 (e : (⟨S2x1200000, .i32⟩ : BufTy).Contents (Elt F)) : (⟨S1200000, .i32⟩ : BufTy).Contents (Elt F) :=
  shapeCast S1200000 (extractStridedSlice S1x1200000 ![0, 0] e slices_S2x1200000_S1x1200000_0_0) shapeCasts_S1x1200000_S1200000

/-- The edge array's second row: the target of every edge. -/
def edgeRow1 (e : (⟨S2x1200000, .i32⟩ : BufTy).Contents (Elt F)) : (⟨S1200000, .i32⟩ : BufTy).Contents (Elt F) :=
  shapeCast S1200000 (extractStridedSlice S1x1200000 ![1, 0] e slices_S2x1200000_S1x1200000_1_0) shapeCasts_S1x1200000_S1200000

/-- The source indices as a column, a negative one shifted by the number of nodes. -/
def srcCol (s : (⟨S1200000, .i32⟩ : BufTy).Contents (Elt F)) : (⟨S1200000x1, .i32⟩ : BufTy).Contents (Elt F) :=
  broadcastInDim S1200000x1 ![0] bcast_S1200000_S1200000x1_0
    (select (cmpi .slt s (broadcastInDim S1200000 ![] bcast_S_S1200000 (constantI S_ 32 0#32)))
      (addi s (broadcastInDim S1200000 ![] bcast_S_S1200000 (constantI S_ 32 100000#32))) s)

/-- The target indices as a column. -/
def dstCol (d : (⟨S1200000, .i32⟩ : BufTy).Contents (Elt F)) : (⟨S1200000x1, .i32⟩ : BufTy).Contents (Elt F) :=
  broadcastInDim S1200000x1 ![0] bcast_S1200000_S1200000x1_0 d

/-- The rows X[s] added up at their targets d, from zero. -/
def aggr (X : (⟨S100000x64, .f32⟩ : BufTy).Contents (Elt F)) (s d : (⟨S1200000, .i32⟩ : BufTy).Contents (Elt F)) :
    (⟨S100000x64, .f32⟩ : BufTy).Contents (Elt F) :=
  Host.scatterAdd scatter_S100000x64_S1200000x1_S1200000x64_1_0_0_1
    (broadcastInDim S100000x64 ![] bcast_S_S100000x64 (constant S_ .f32 0x00000000#32)) (dstCol d)
    (Host.gather gather_S100000x64_S1200000x1_S1200000x64_1_0_n_n_0_1_164 X (srcCol s))

/-- One per edge added up at its target, from zero. -/
def cnt (d : (⟨S1200000, .i32⟩ : BufTy).Contents (Elt F)) : (⟨S100000, .f32⟩ : BufTy).Contents (Elt F) :=
  Host.scatterAdd scatter_S100000_S1200000x1_S1200000_n_0_0_1
    (broadcastInDim S100000 ![] bcast_S_S100000 (constant S_ .f32 0x00000000#32)) (dstCol d)
    (broadcastInDim S1200000 ![] bcast_S_S1200000 (constant S_ .f32 0x3F800000#32))

/-- The all-ones vector over the nodes. -/
def ones : (⟨S100000, .f32⟩ : BufTy).Contents (Elt F) :=
  broadcastInDim S100000 ![] bcast_S_S100000 (constant S_ .f32 0x3F800000#32)

/-- The in-degree clipped below at one. -/
def deg (d : (⟨S1200000, .i32⟩ : BufTy).Contents (Elt F)) : (⟨S100000, .f32⟩ : BufTy).Contents (Elt F) :=
  maximumf (cnt d) ones

/-- A per-node vector laid along the columns. -/
def colBc (v : (⟨S100000, .f32⟩ : BufTy).Contents (Elt F)) : (⟨S100000x64, .f32⟩ : BufTy).Contents (Elt F) :=
  broadcastInDim S100000x64 ![0, 1] bcast_S100000x1_S100000x64_0_1 (broadcastInDim S100000x1 ![0] bcast_S100000_S100000x1_0 v)

/-- A bias vector laid along the rows. -/
def rowBc (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- The rectifier. -/
def relu (y : (⟨S100000x64, .f32⟩ : BufTy).Contents (Elt F)) : (⟨S100000x64, .f32⟩ : BufTy).Contents (Elt F) :=
  maximumf y (broadcastInDim S100000x64 ![] bcast_S_S100000x64 (constant S_ .f32 0x00000000#32))

/-- One layer from the neighbour sums A and the clipped degree D. -/
def layerOf (A : (⟨S100000x64, .f32⟩ : BufTy).Contents (Elt F)) (D : (⟨S100000, .f32⟩ : BufTy).Contents (Elt F))
    (X : (⟨S100000x64, .f32⟩ : BufTy).Contents (Elt F)) (Wl : (⟨S64x64, .f32⟩ : BufTy).Contents (Elt F))
    (b : (⟨S64, .f32⟩ : BufTy).Contents (Elt F)) (Wr : (⟨S64x64, .f32⟩ : BufTy).Contents (Elt F)) :
    (⟨S100000x64, .f32⟩ : BufTy).Contents (Elt F) :=
  relu (addf (addf (Host.dotGeneral dot_S100000x64_S64x64_S100000x64_1_0_0_1_n_n none (Host.divf A (colBc D)) Wl) (rowBc b))
    (Host.dotGeneral dot_S100000x64_S64x64_S100000x64_1_0_0_1_n_n none X Wr))

/-- The second layer followed by the projection and its bias, flattened. -/
def tailOf (A : (⟨S100000x64, .f32⟩ : BufTy).Contents (Elt F)) (D : (⟨S100000, .f32⟩ : BufTy).Contents (Elt F))
    (H : (⟨S100000x64, .f32⟩ : BufTy).Contents (Elt F)) (Wl : (⟨S64x64, .f32⟩ : BufTy).Contents (Elt F))
    (b : (⟨S64, .f32⟩ : BufTy).Contents (Elt F)) (Wr : (⟨S64x64, .f32⟩ : BufTy).Contents (Elt F))
    (Wfc : (⟨S64x1, .f32⟩ : BufTy).Contents (Elt F)) (bfc : (⟨S1, .f32⟩ : BufTy).Contents (Elt F)) :
    (⟨S100000, .f32⟩ : BufTy).Contents (Elt F) :=
  shapeCast S100000
    (addf (Host.dotGeneral dot_S100000x64_S64x1_S100000x1_1_0_0_1_n_n none (layerOf A D H Wl b Wr) Wfc)
      (broadcastInDim S100000x1 ![0, 1] bcast_S1x1_S100000x1_0_1 (broadcastInDim S1x1 ![1] bcast_S1_S1x1_1 bfc)))
    shapeCasts_S100000x1_S100000

/-- The whole reference: two layers over the cleaned features, then the projection. -/
def out (x : (⟨S100000x64, .f32⟩ : BufTy).Contents (Elt F)) (e : (⟨S2x1200000, .i32⟩ : BufTy).Contents (Elt F))
    (W1l : (⟨S64x64, .f32⟩ : BufTy).Contents (Elt F)) (b1 : (⟨S64, .f32⟩ : BufTy).Contents (Elt F))
    (W1r W2l : (⟨S64x64, .f32⟩ : BufTy).Contents (Elt F)) (b2 : (⟨S64, .f32⟩ : BufTy).Contents (Elt F))
    (W2r : (⟨S64x64, .f32⟩ : BufTy).Contents (Elt F)) (Wfc : (⟨S64x1, .f32⟩ : BufTy).Contents (Elt F))
    (bfc : (⟨S1, .f32⟩ : BufTy).Contents (Elt F)) : (⟨S100000, .f32⟩ : BufTy).Contents (Elt F) :=
  let s := edgeRow0 e
  let d := edgeRow1 e
  let H := layerOf (aggr (clean x) s d) (deg d) (clean x) W1l b1 W1r
  tailOf (aggr H s d) (deg d) H W2l b2 W2r Wfc bfc

end Cert.ReferenceIdeal.Fns

end
-- ==== Proof.KHost.lean ====
/-
  The kernel program's host stretches, read one at a time.

  Before the first kernel: the two edge rows, the cleaned features, then the neighbour sums of the cleaned features, the
  reciprocal of the clipped degree as a column, their product (the mean), and the first bias as a one-row matrix.  Between
  the kernels: the neighbour sums of the first kernel's output times the same reciprocal column, the second bias as a row,
  the projection matrix transposed to a row, the scalar bias as a 1×1 matrix.  After the second kernel: its one-column
  output flattened.  The gathers, scatter-adds and index arithmetic are the same operations as the reference's, so they
  are named by the same functions.
-/
import proofs.«130286_j79912161509825_1_alg».proof.Proof.Gen.KernelIdeal.Launch
import proofs.«130286_j79912161509825_1_alg».proof.Proof.RefFns
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]

/-- The reciprocal of the clipped degree. -/
def recip (d : (⟨S1200000, .i32⟩ : BufTy).Contents (Elt F)) : (⟨S100000, .f32⟩ : BufTy).Contents (Elt F) :=
  Host.divf Cert.ReferenceIdeal.Fns.ones (Cert.ReferenceIdeal.Fns.deg d)

/-- That reciprocal as a column. -/
def recipCol (d : (⟨S1200000, .i32⟩ : BufTy).Contents (Elt F)) : (⟨S100000x1, .f32⟩ : BufTy).Contents (Elt F) :=
  broadcastInDim S100000x1 ![0] bcast_S100000_S100000x1_0 (recip d)

/-- Neighbour sums times a per-node column. -/
def scaled (A : (⟨S100000x64, .f32⟩ : BufTy).Contents (Elt F)) (r : (⟨S100000x1, .f32⟩ : BufTy).Contents (Elt F)) :
    (⟨S100000x64, .f32⟩ : BufTy).Contents (Elt F) :=
  mulf A (broadcastInDim S100000x64 ![0, 1] bcast_S100000x1_S100000x64_0_1 r)

/-! ## Before the first kernel -/

set_option maxRecDepth 8192 in
set_option maxHeartbeats 4000000 in
theorem a_v1 (V : Valuation τ sig (Elt F)) :
    after hostOps0 V (Proc.devRef .tc main_v1) = Cert.ReferenceIdeal.Fns.edgeRow0 (V (Proc.devRef .tc main_arg1)) := by
  after_results_simp
  rfl

set_option maxRecDepth 8192 in
set_option maxHeartbeats 4000000 in
theorem a_v3 (V : Valuation τ sig (Elt F)) :
    after hostOps0 V (Proc.devRef .tc main_v3) = Cert.ReferenceIdeal.Fns.edgeRow1 (V (Proc.devRef .tc main_arg1)) := by
  after_results_simp
  rfl

set_option maxRecDepth 8192 in
set_option maxHeartbeats 4000000 in
theorem a_kept (V : Valuation τ sig (Elt F)) :
    after hostOps0 V (Proc.devRef .tc main_arg0) = V (Proc.devRef .tc main_arg0)
      ∧ after hostOps0 V (Proc.devRef .tc main_arg1) = V (Proc.devRef .tc main_arg1)
      ∧ after hostOps0 V (Proc.devRef .tc main_arg2) = V (Proc.devRef .tc main_arg2)
      ∧ after hostOps0 V (Proc.devRef .tc main_arg3) = V (Proc.devRef .tc main_arg3)
      ∧ after hostOps0 V (Proc.devRef .tc main_arg4) = V (Proc.devRef .tc main_arg4)
      ∧ after hostOps0 V (Proc.devRef .tc main_arg5) = V (Proc.devRef .tc main_arg5)
      ∧ after hostOps0 V (Proc.devRef .tc main_arg6) = V (Proc.devRef .tc main_arg6)
      ∧ after hostOps0 V (Proc.devRef .tc main_arg7) = V (Proc.devRef .tc main_arg7)
      ∧ after hostOps0 V (Proc.devRef .tc main_arg8) = V (Proc.devRef .tc main_arg8)
      ∧ after hostOps0 V (Proc.devRef .tc main_arg9) = V (Proc.devRef .tc main_arg9) := by
  refine ⟨?_, ?_, ?_, ?_, ?_, ?_, ?_, ?_, ?_, ?_⟩ <;> after_results_simp

set_option maxRecDepth 8192 in
set_option maxHeartbeats 8000000 in
theorem b_v4 (V : Valuation τ sig (Elt F)) :
    after hostOps0_1 (after hostOps0 V) (Proc.devRef .tc main_v4) = Cert.ReferenceIdeal.Fns.clean (V (Proc.devRef .tc main_arg0)) := by
  after_results_simp
  rfl

set_option maxRecDepth 8192 in
set_option maxHeartbeats 4000000 in
theorem b_kept (V : Valuation τ sig (Elt F)) :
    after hostOps0_1 V (Proc.devRef .tc main_arg0) = V (Proc.devRef .tc main_arg0)
      ∧ after hostOps0_1 V (Proc.devRef .tc main_arg1) = V (Proc.devRef .tc main_arg1)
      ∧ after hostOps0_1 V (Proc.devRef .tc main_arg2) = V (Proc.devRef .tc main_arg2)
      ∧ after hostOps0_1 V (Proc.devRef .tc main_arg3) = V (Proc.devRef .tc main_arg3)
      ∧ after hostOps0_1 V (Proc.devRef .tc main_arg4) = V (Proc.devRef .tc main_arg4)
      ∧ after hostOps0_1 V (Proc.devRef .tc main_arg5) = V (Proc.devRef .tc main_arg5)
      ∧ after hostOps0_1 V (Proc.devRef .tc main_arg6) = V (Proc.devRef .tc main_arg6)
      ∧ after hostOps0_1 V (Proc.devRef .tc main_arg7) = V (Proc.devRef .tc main_arg7)
      ∧ after hostOps0_1 V (Proc.devRef .tc main_arg8) = V (Proc.devRef .tc main_arg8)
      ∧ after hostOps0_1 V (Proc.devRef .tc main_arg9) = V (Proc.devRef .tc main_arg9)
      ∧ after hostOps0_1 V (Proc.devRef .tc main_v1) = V (Proc.devRef .tc main_v1)
      ∧ after hostOps0_1 V (Proc.devRef .tc main_v3) = V (Proc.devRef .tc main_v3) := by
  refine ⟨?_, ?_, ?_, ?_, ?_, ?_, ?_, ?_, ?_, ?_, ?_, ?_⟩ <;> after_results_simp

set_option maxRecDepth 8192 in
set_option maxHeartbeats 8000000 in
theorem c_v25 (V : Valuation τ sig (Elt F)) :
    after hostOps0_2 V (Proc.devRef .tc main_v25)
      = scaled (Cert.ReferenceIdeal.Fns.aggr (V (Proc.devRef .tc main_v4)) (V (Proc.devRef .tc main_v1)) (V (Proc.devRef .tc main_v3)))
          (recipCol (V (Proc.devRef .tc main_v3))) := by
  after_results_simp
  rfl

set_option maxRecDepth 8192 in
set_option maxHeartbeats 8000000 in
theorem c_v13 (V : Valuation τ sig (Elt F)) :
    after hostOps0_2 V (Proc.devRef .tc main_v13) = recipCol (V (Proc.devRef .tc main_v3)) := by
  after_results_simp
  rfl

set_option maxRecDepth 8192 in
set_option maxHeartbeats 8000000 in
theorem c_v26 (V : Valuation τ sig (Elt F)) :
    after hostOps0_2 V (Proc.devRef .tc main_v26) = shapeCast S1x64 (V (Proc.devRef .tc main_arg3)) shapeCasts_S64_S1x64 := by
  after_results_simp
  rfl

set_option maxRecDepth 8192 in
set_option maxHeartbeats 8000000 in
theorem c_kept (V : Valuation τ sig (Elt F)) :
    after hostOps0_2 V (Proc.devRef .tc main_arg0) = V (Proc.devRef .tc main_arg0)
      ∧ after hostOps0_2 V (Proc.devRef .tc main_arg1) = V (Proc.devRef .tc main_arg1)
      ∧ after hostOps0_2 V (Proc.devRef .tc main_arg2) = V (Proc.devRef .tc main_arg2)
      ∧ after hostOps0_2 V (Proc.devRef .tc main_arg3) = V (Proc.devRef .tc main_arg3)
      ∧ after hostOps0_2 V (Proc.devRef .tc main_arg4) = V (Proc.devRef .tc main_arg4)
      ∧ after hostOps0_2 V (Proc.devRef .tc main_arg5) = V (Proc.devRef .tc main_arg5)
      ∧ after hostOps0_2 V (Proc.devRef .tc main_arg6) = V (Proc.devRef .tc main_arg6)
      ∧ after hostOps0_2 V (Proc.devRef .tc main_arg7) = V (Proc.devRef .tc main_arg7)
      ∧ after hostOps0_2 V (Proc.devRef .tc main_arg8) = V (Proc.devRef .tc main_arg8)
      ∧ after hostOps0_2 V (Proc.devRef .tc main_arg9) = V (Proc.devRef .tc main_arg9)
      ∧ after hostOps0_2 V (Proc.devRef .tc main_v1) = V (Proc.devRef .tc main_v1)
      ∧ after hostOps0_2 V (Proc.devRef .tc main_v3) = V (Proc.devRef .tc main_v3)
      ∧ after hostOps0_2 V (Proc.devRef .tc main_v4) = V (Proc.devRef .tc main_v4) := by
  refine ⟨?_, ?_, ?_, ?_, ?_, ?_, ?_, ?_, ?_, ?_, ?_, ?_, ?_⟩ <;> after_results_simp

/-! ## Between the kernels -/

set_option maxRecDepth 8192 in
set_option maxHeartbeats 8000000 in
theorem d_v39 (V : Valuation τ sig (Elt F)) :
    after hostOps1 V (Proc.devRef .tc main_v39)
      = scaled (Cert.ReferenceIdeal.Fns.aggr (V (Proc.devRef .tc main_v27)) (V (Proc.devRef .tc main_v1)) (V (Proc.devRef .tc main_v3)))
          (V (Proc.devRef .tc main_v13)) := by
  after_results_simp
  rfl

set_option maxRecDepth 8192 in
set_option maxHeartbeats 8000000 in
theorem d_v40 (V : Valuation τ sig (Elt F)) :
    after hostOps1 V (Proc.devRef .tc main_v40) = shapeCast S1x64 (V (Proc.devRef .tc main_arg6)) shapeCasts_S64_S1x64 := by
  after_results_simp
  rfl

set_option maxRecDepth 8192 in
set_option maxHeartbeats 8000000 in
theorem d_v41 (V : Valuation τ sig (Elt F)) :
    after hostOps1 V (Proc.devRef .tc main_v41) = transpose S1x64 [1, 0] (V (Proc.devRef .tc main_arg8)) transposes_S64x1_S1x64_1_0 := by
  after_results_simp

set_option maxRecDepth 8192 in
set_option maxHeartbeats 8000000 in
theorem d_v42 (V : Valuation τ sig (Elt F)) :
    after hostOps1 V (Proc.devRef .tc main_v42) = shapeCast S1x1 (V (Proc.devRef .tc main_arg9)) shapeCasts_S1_S1x1 := by
  after_results_simp
  rfl

set_option maxRecDepth 8192 in
set_option maxHeartbeats 8000000 in
theorem d_kept (V : Valuation τ sig (Elt F)) :
    after hostOps1 V (Proc.devRef .tc main_arg0) = V (Proc.devRef .tc main_arg0)
      ∧ after hostOps1 V (Proc.devRef .tc main_arg1) = V (Proc.devRef .tc main_arg1)
      ∧ after hostOps1 V (Proc.devRef .tc main_arg2) = V (Proc.devRef .tc main_arg2)
      ∧ after hostOps1 V (Proc.devRef .tc main_arg3) = V (Proc.devRef .tc main_arg3)
      ∧ after hostOps1 V (Proc.devRef .tc main_arg4) = V (Proc.devRef .tc main_arg4)
      ∧ after hostOps1 V (Proc.devRef .tc main_arg5) = V (Proc.devRef .tc main_arg5)
      ∧ after hostOps1 V (Proc.devRef .tc main_arg6) = V (Proc.devRef .tc main_arg6)
      ∧ after hostOps1 V (Proc.devRef .tc main_arg7) = V (Proc.devRef .tc main_arg7)
      ∧ after hostOps1 V (Proc.devRef .tc main_arg8) = V (Proc.devRef .tc main_arg8)
      ∧ after hostOps1 V (Proc.devRef .tc main_arg9) = V (Proc.devRef .tc main_arg9)
      ∧ after hostOps1 V (Proc.devRef .tc main_v27) = V (Proc.devRef .tc main_v27) := by
  refine ⟨?_, ?_, ?_, ?_, ?_, ?_, ?_, ?_, ?_, ?_, ?_⟩ <;> after_results_simp

/-! ## After the second kernel -/

theorem e_v44 (V : Valuation τ sig (Elt F)) :
    after hostOps2 V (Proc.devRef .tc main_v44) = shapeCast S100000 (V (Proc.devRef .tc main_v43)) shapeCasts_S100000x1_S100000 := by
  after_results_simp
  rfl

end Cert.KernelIdeal.KHost

end
-- ==== Proof.KValue.lean ====
/-
  The kernel program's result as a function of its arguments.

  Reading the run's boundary contents backwards: the result is the second kernel's output column flattened; that column is
  `G2` of the arrays the second region finds — the neighbour sums of the first kernel's output scaled by the reciprocal
  degree, that output itself, the second layer's weights, its bias as a row, the projection as a row, the scalar bias —; the
  first kernel's output is `G1` of the arrays the first region finds — the scaled neighbour sums of the cleaned features,
  the cleaned features, the first layer's weights and bias row —; and every buffer a region does not own passes through it
  unchanged.
-/
import proofs.«130286_j79912161509825_1_alg».proof.Proof.KRun
import proofs.«130286_j79912161509825_1_alg».proof.Proof.KBlocks
import proofs.«130286_j79912161509825_1_alg».proof.Proof.KHost

noncomputable section

namespace Cert.KernelIdeal.KValue

open Cert.KernelIdeal Cert.KernelIdeal.Gen Idealize.ShloMosaic Idealize.ShloMosaic.TcCoe Idealize.SL.Sem
open Cert.ReferenceIdeal (Fns.edgeRow0 Fns.edgeRow1 Fns.clean Fns.aggr)

variable (m : (ℓ : Loc nD τ sig) → Buf (Elt Ideal) ℓ) (ρ : Dev nD → PrngReg)

/-- The kernel program's result, from its ten arguments. -/
def kerOut (x : (⟨S100000x64, .f32⟩ : BufTy).Contents (Elt Ideal)) (e : (⟨S2x1200000, .i32⟩ : BufTy).Contents (Elt Ideal))
    (W1l : (⟨S64x64, .f32⟩ : BufTy).Contents (Elt Ideal)) (b1 : (⟨S64, .f32⟩ : BufTy).Contents (Elt Ideal))
    (W1r W2l : (⟨S64x64, .f32⟩ : BufTy).Contents (Elt Ideal)) (b2 : (⟨S64, .f32⟩ : BufTy).Contents (Elt Ideal))
    (W2r : (⟨S64x64, .f32⟩ : BufTy).Contents (Elt Ideal)) (Wfc : (⟨S64x1, .f32⟩ : BufTy).Contents (Elt Ideal))
    (bfc : (⟨S1, .f32⟩ : BufTy).Contents (Elt Ideal)) : (⟨S100000, .f32⟩ : BufTy).Contents (Elt Ideal) :=
  let s := Fns.edgeRow0 e
  let d := Fns.edgeRow1 e
  let X := Fns.clean x
  let r := KHost.recipCol d
  let H : (⟨S100000x64, .f32⟩ : BufTy).Contents (Elt Ideal) :=
    KBlocks.G1 (KHost.scaled (Fns.aggr X s d) r) X W1l (shapeCast S1x64 b1 shapeCasts_S64_S1x64) W1r
  shapeCast S100000
    (KBlocks.G2 (KHost.scaled (Fns.aggr H s d) r) H W2l (shapeCast S1x64 b2 shapeCasts_S64_S1x64) W2r
      (transpose S1x64 [1, 0] Wfc transposes_S64x1_S1x64_1_0) (shapeCast S1x1 bfc shapeCasts_S1_S1x1))
    shapeCasts_S100000x1_S100000

/-- The arguments at the first region's entry are the launch contents. -/
theorem W3_args (c : Dev nD) :
    W3 m ρ c (Proc.devRef .tc main_arg0) = (m ((c.tc : Thread nD τ).loc main_arg0))
    ∧ W3 m ρ c (Proc.devRef .tc main_arg1) = (m ((c.tc : Thread nD τ).loc main_arg1))
    ∧ W3 m ρ c (Proc.devRef .tc main_arg2) = (m ((c.tc : Thread nD τ).loc main_arg2))
    ∧ W3 m ρ c (Proc.devRef .tc main_arg3) = (m ((c.tc : Thread nD τ).loc main_arg3))
    ∧ W3 m ρ c (Proc.devRef .tc main_arg4) = (m ((c.tc : Thread nD τ).loc main_arg4))
    ∧ W3 m ρ c (Proc.devRef .tc main_arg5) = (m ((c.tc : Thread nD τ).loc main_arg5))
    ∧ W3 m ρ c (Proc.devRef .tc main_arg6) = (m ((c.tc : Thread nD τ).loc main_arg6))
    ∧ W3 m ρ c (Proc.devRef .tc main_arg7) = (m ((c.tc : Thread nD τ).loc main_arg7))
    ∧ W3 m ρ c (Proc.devRef .tc main_arg8) = (m ((c.tc : Thread nD τ).loc main_arg8))
    ∧ W3 m ρ c (Proc.devRef .tc main_arg9) = (m ((c.tc : Thread nD τ).loc main_arg9)) := by
  obtain ⟨a0, a1, a2, a3, a4, a5, a6, a7, a8, a9⟩ := KHost.a_kept (W0 m ρ c)
  obtain ⟨b0, b1, b2, b3, b4, b5, b6, b7, b8, b9, -, -⟩ := KHost.b_kept (W1 m ρ c)
  obtain ⟨c0, c1, c2, c3, c4, c5, c6, c7, c8, c9, -, -, -⟩ := KHost.c_kept (W2 m ρ c)
  exact ⟨c0.trans (b0.trans a0), c1.trans (b1.trans a1), c2.trans (b2.trans a2), c3.trans (b3.trans a3),
    c4.trans (b4.trans a4), c5.trans (b5.trans a5), c6.trans (b6.trans a6), c7.trans (b7.trans a7),
    c8.trans (b8.trans a8), c9.trans (b9.trans a9)⟩

/-- The edge rows and the cleaned features at the first region's entry. -/
theorem W3_rows (c : Dev nD) :
    W3 m ρ c (Proc.devRef .tc main_v1) = Fns.edgeRow0 (m ((c.tc : Thread nD τ).loc main_arg1))
    ∧ W3 m ρ c (Proc.devRef .tc main_v3) = Fns.edgeRow1 (m ((c.tc : Thread nD τ).loc main_arg1))
    ∧ W3 m ρ c (Proc.devRef .tc main_v4) = Fns.clean (m ((c.tc : Thread nD τ).loc main_arg0)) := by
  obtain ⟨-, -, -, -, -, -, -, -, -, -, b1, b3⟩ := KHost.b_kept (W1 m ρ c)
  obtain ⟨-, -, -, -, -, -, -, -, -, -, c1, c3, c4⟩ := KHost.c_kept (W2 m ρ c)
  exact ⟨c1.trans (b1.trans (KHost.a_v1 (W0 m ρ c))), c3.trans (b3.trans (KHost.a_v3 (W0 m ρ c))),
    c4.trans (KHost.b_v4 (W0 m ρ c))⟩

/-- The first kernel's output array: `G1` of the scaled neighbour sums, the cleaned features, the weights and the bias row. -/
theorem H_eq (c : Dev nD) :
    W4 m ρ c (Proc.devRef .tc main_v27)
      = KBlocks.G1 (KHost.scaled (Fns.aggr (Fns.clean (m ((c.tc : Thread nD τ).loc main_arg0))) (Fns.edgeRow0 (m ((c.tc : Thread nD τ).loc main_arg1))) (Fns.edgeRow1 (m ((c.tc : Thread nD τ).loc main_arg1))))
            (KHost.recipCol (Fns.edgeRow1 (m ((c.tc : Thread nD τ).loc main_arg1)))))
          (Fns.clean (m ((c.tc : Thread nD τ).loc main_arg0))) (m ((c.tc : Thread nD τ).loc main_arg2)) (shapeCast S1x64 (m ((c.tc : Thread nD τ).loc main_arg3)) shapeCasts_S64_S1x64) (m ((c.tc : Thread nD τ).loc main_arg4)) := by
  obtain ⟨-, -, a2, a3, a4, -, -, -, -, -⟩ := W3_args m ρ c
  obtain ⟨hs, hd, hX⟩ := W3_rows m ρ c
  obtain ⟨-, -, -, b3, -, -, -, -, -, -, b1', b3'⟩ := KHost.b_kept (W1 m ρ c)
  obtain ⟨-, -, -, -, -, -, -, -, -, -, -, -, -⟩ := KHost.c_kept (W2 m ρ c)
  have hs2 : W2 m ρ c (Proc.devRef .tc main_v1) = Fns.edgeRow0 (m ((c.tc : Thread nD τ).loc main_arg1)) := b1'.trans (KHost.a_v1 (W0 m ρ c))
  have hd2 : W2 m ρ c (Proc.devRef .tc main_v3) = Fns.edgeRow1 (m ((c.tc : Thread nD τ).loc main_arg1)) := b3'.trans (KHost.a_v3 (W0 m ρ c))
  have hX2 : W2 m ρ c (Proc.devRef .tc main_v4) = Fns.clean (m ((c.tc : Thread nD τ).loc main_arg0)) := KHost.b_v4 (W0 m ρ c)
  have a3' : W2 m ρ c (Proc.devRef .tc main_arg3) = (m ((c.tc : Thread nD τ).loc main_arg3)) := b3.trans (KHost.a_kept (W0 m ρ c)).2.2.2.1
  have hmean : W3 m ρ c (Proc.devRef .tc main_v25)
      = KHost.scaled (Fns.aggr (Fns.clean (m ((c.tc : Thread nD τ).loc main_arg0))) (Fns.edgeRow0 (m ((c.tc : Thread nD τ).loc main_arg1))) (Fns.edgeRow1 (m ((c.tc : Thread nD τ).loc main_arg1))))
          (KHost.recipCol (Fns.edgeRow1 (m ((c.tc : Thread nD τ).loc main_arg1)))) := by
    refine (KHost.c_v25 (W2 m ρ c)).trans ?_
    rw [hs2, hd2, hX2]
  have hb : W3 m ρ c (Proc.devRef .tc main_v26) = shapeCast S1x64 (m ((c.tc : Thread nD τ).loc main_arg3)) shapeCasts_S64_S1x64 := by
    refine (KHost.c_v26 (W2 m ρ c)).trans ?_
    rw [a3']
  refine (W4_arr m ρ c 5).trans ((KBlocks.final0 (V3 m ρ) c).trans ?_)
  show KBlocks.G1 (W3 m ρ c (Proc.devRef .tc main_v25)) (W3 m ρ c (Proc.devRef .tc main_v4)) (W3 m ρ c (Proc.devRef .tc main_arg2))
    (W3 m ρ c (Proc.devRef .tc main_v26)) (W3 m ρ c (Proc.devRef .tc main_arg4)) = _
  rw [hmean, hX, a2, hb, a4]

/-- The result buffer at the last boundary is `kerOut` of the launch contents of the arguments. -/
theorem value (c : Dev nD) :
    W7 m ρ c (Proc.devRef .tc main_v44)
      = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  obtain ⟨-, -, -, -, -, a5, a6, a7, a8, a9⟩ := W3_args m ρ c
  obtain ⟨hs, hd, -⟩ := W3_rows m ρ c
  obtain ⟨-, -, -, -, -, -, -, -, -, -, -, b3'⟩ := KHost.b_kept (W1 m ρ c)
  have hd2 : W2 m ρ c (Proc.devRef .tc main_v3) = Fns.edgeRow1 (m ((c.tc : Thread nD τ).loc main_arg1)) := b3'.trans (KHost.a_v3 (W0 m ρ c))
  have hr : W3 m ρ c (Proc.devRef .tc main_v13) = KHost.recipCol (Fns.edgeRow1 (m ((c.tc : Thread nD τ).loc main_arg1))) := by
    refine (KHost.c_v13 (W2 m ρ c)).trans ?_
    rw [hd2]
  have hH := H_eq m ρ c
  -- what the first region does not own passes through it
  have p1 : W4 m ρ c (Proc.devRef .tc main_v1) = W3 m ρ c (Proc.devRef .tc main_v1) := W4_of_ne m ρ c main_v1 (by decide)
  have p3 : W4 m ρ c (Proc.devRef .tc main_v3) = W3 m ρ c (Proc.devRef .tc main_v3) := W4_of_ne m ρ c main_v3 (by decide)
  have p13 : W4 m ρ c (Proc.devRef .tc main_v13) = W3 m ρ c (Proc.devRef .tc main_v13) := W4_of_ne m ρ c main_v13 (by decide)
  have q5 : W4 m ρ c (Proc.devRef .tc main_arg5) = W3 m ρ c (Proc.devRef .tc main_arg5) := W4_of_ne m ρ c main_arg5 (by decide)
  have q6 : W4 m ρ c (Proc.devRef .tc main_arg6) = W3 m ρ c (Proc.devRef .tc main_arg6) := W4_of_ne m ρ c main_arg6 (by decide)
  have q7 : W4 m ρ c (Proc.devRef .tc main_arg7) = W3 m ρ c (Proc.devRef .tc main_arg7) := W4_of_ne m ρ c main_arg7 (by decide)
  have q8 : W4 m ρ c (Proc.devRef .tc main_arg8) = W3 m ρ c (Proc.devRef .tc main_arg8) := W4_of_ne m ρ c main_arg8 (by decide)
  have q9 : W4 m ρ c (Proc.devRef .tc main_arg9) = W3 m ρ c (Proc.devRef .tc main_arg9) := W4_of_ne m ρ c main_arg9 (by decide)
  obtain ⟨-, -, -, -, -, d5, -, d7, -, -, d27⟩ := KHost.d_kept (W4 m ρ c)
  have hmean2 : W5 m ρ c (Proc.devRef .tc main_v39) = KHost.scaled (Fns.aggr (W4 m ρ c (Proc.devRef .tc main_v27)) (Fns.edgeRow0 (m ((c.tc : Thread nD τ).loc main_arg1))) (Fns.edgeRow1 (m ((c.tc : Thread nD τ).loc main_arg1))))
      (KHost.recipCol (Fns.edgeRow1 (m ((c.tc : Thread nD τ).loc main_arg1)))) := by
    refine (KHost.d_v39 (W4 m ρ c)).trans ?_
    rw [p1, p3, p13, hs, hd, hr]
  have h40 : W5 m ρ c (Proc.devRef .tc main_v40) = shapeCast S1x64 (m ((c.tc : Thread nD τ).loc main_arg6)) shapeCasts_S64_S1x64 := by
    refine (KHost.d_v40 (W4 m ρ c)).trans ?_
    rw [q6, a6]
  have h41 : W5 m ρ c (Proc.devRef .tc main_v41) = transpose S1x64 [1, 0] (m ((c.tc : Thread nD τ).loc main_arg8)) transposes_S64x1_S1x64_1_0 := by
    refine (KHost.d_v41 (W4 m ρ c)).trans ?_
    rw [q8, a8]
  have h42 : W5 m ρ c (Proc.devRef .tc main_v42) = shapeCast S1x1 (m ((c.tc : Thread nD τ).loc main_arg9)) shapeCasts_S1_S1x1 := by
    refine (KHost.d_v42 (W4 m ρ c)).trans ?_
    rw [q9, a9]
  have h5 : W5 m ρ c (Proc.devRef .tc main_arg5) = (m ((c.tc : Thread nD τ).loc main_arg5)) := d5.trans (q5.trans a5)
  have h7 : W5 m ρ c (Proc.devRef .tc main_arg7) = (m ((c.tc : Thread nD τ).loc main_arg7)) := d7.trans (q7.trans a7)
  have h27 : W5 m ρ c (Proc.devRef .tc main_v27) = W4 m ρ c (Proc.devRef .tc main_v27) := d27
  refine (KHost.e_v44 (W6 m ρ c)).trans ?_
  refine congrArg (fun z => shapeCast S100000 z shapeCasts_S100000x1_S100000) ?_
  refine (W6_arr m ρ c 7).trans ((KBlocks.final1 (V5 m ρ) c).trans ?_)
  show KBlocks.G2 (W5 m ρ c (Proc.devRef .tc main_v39)) (W5 m ρ c (Proc.devRef .tc main_v27)) (W5 m ρ c (Proc.devRef .tc main_arg5))
    (W5 m ρ c (Proc.devRef .tc main_v40)) (W5 m ρ c (Proc.devRef .tc main_arg7)) (W5 m ρ c (Proc.devRef .tc main_v41)) (W5 m ρ c (Proc.devRef .tc main_v42)) = _
  rw [hmean2, h27, h5, h40, h7, h41, h42, hH]

/-- Every weakly fair execution of the kernel program terminates with the result at `kerOut` of the arguments and the
    arguments unchanged. -/
theorem run : θ_run defs (onTc (τ := τ) (main (F := Ideal))) ⟨m, fun _ => 0, ρ⟩ (fun r => ∀ c : Dev nD,
      r.2.mem ((c.tc : Thread nD τ).loc main_v44)
        = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (value m ρ c), (h c).2⟩) (KRun.run_main m ρ)

end Cert.KernelIdeal.KValue

end
-- ==== Proof.RefOps.lean ====
/- The reference program's host operations, in order, as four lists.

  The reference's entry function is one sequence of host operations once its three outlined functions are written out at
  their call sites: the replacement of not-a-number and infinite entries of the features (the array compared with itself,
  then selects against +inf, the largest finite number, -inf and the smallest), and the two rectifiers (a zero constant,
  its broadcast, a maximum).  Each list comes with the fact that its operations touch TensorCore buffers only. -/
import proofs.«130286_j79912161509825_1_alg».proof.ReferenceIdeal
import proofs.«130286_j79912161509825_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The two rows of the edge array, and the features with not-a-number and infinite entries replaced. -/
abbrev ops1 : List (HloOp τ sig (Elt F)) :=
  [ StableHlo.unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    StableHlo.reshape main_v0 main_v1 rfl shapeCasts_S1x1200000_S1200000,
    StableHlo.unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    StableHlo.reshape main_v2 main_v3 rfl shapeCasts_S1x1200000_S1200000,
    StableHlo.nullary main_cst (constant S_ .f32 0x00000000#32),
    StableHlo.TRef.binary (.of main_arg0 : StableHlo.TRef sig ⟨S100000x64, .f32⟩) (.of main_arg0 : StableHlo.TRef sig ⟨S100000x64, .f32⟩) (.of main_call0_v0 : StableHlo.TRef sig ⟨S100000x64, .i1⟩) (cmpf .une),
    StableHlo.TRef.unary (.of main_cst : StableHlo.TRef sig ⟨S_, .f32⟩) (.of main_call0_v1 : StableHlo.TRef sig ⟨S_, .f32⟩) id,
    StableHlo.TRef.unary (.of main_call0_v1 : StableHlo.TRef sig ⟨S_, .f32⟩) (.of main_call0_call0_v0 : StableHlo.TRef sig ⟨S100000x64, .f32⟩) (broadcastInDim S100000x64 ![] bcast_S_S100000x64),
    StableHlo.TRef.ternary (.of main_call0_v0 : StableHlo.TRef sig ⟨S100000x64, .i1⟩) (.of main_call0_call0_v0 : StableHlo.TRef sig ⟨S100000x64, .f32⟩) (.of main_arg0 : StableHlo.TRef sig ⟨S100000x64, .f32⟩) (.of main_call0_v2 : StableHlo.TRef sig ⟨S100000x64, .f32⟩) select,
    StableHlo.TRef.nullary (.of main_call0_cst : StableHlo.TRef sig ⟨S_, .f32⟩) (constant S_ .f32 0x7F800000#32),
    StableHlo.TRef.unary (.of main_call0_cst : StableHlo.TRef sig ⟨S_, .f32⟩) (.of main_call0_v3 : StableHlo.TRef sig ⟨S100000x64, .f32⟩) (broadcastInDim S100000x64 ![] bcast_S_S100000x64),
    StableHlo.TRef.binary (.of main_call0_v2 : StableHlo.TRef sig ⟨S100000x64, .f32⟩) (.of main_call0_v3 : StableHlo.TRef sig ⟨S100000x64, .f32⟩) (.of main_call0_v4 : StableHlo.TRef sig ⟨S100000x64, .i1⟩) (cmpf .oeq),
    StableHlo.TRef.nullary (.of main_call0_cst_0 : StableHlo.TRef sig ⟨S_, .f32⟩) (constant S_ .f32 0x7F7FFFFF#32),
    StableHlo.TRef.unary (.of main_call0_cst_0 : StableHlo.TRef sig ⟨S_, .f32⟩) (.of main_call0_call1_v0 : StableHlo.TRef sig ⟨S100000x64, .f32⟩) (broadcastInDim S100000x64 ![] bcast_S_S100000x64),
    StableHlo.TRef.ternary (.of main_call0_v4 : StableHlo.TRef sig ⟨S100000x64, .i1⟩) (.of main_call0_call1_v0 : StableHlo.TRef sig ⟨S100000x64, .f32⟩) (.of main_call0_v2 : StableHlo.TRef sig ⟨S100000x64, .f32⟩) (.of main_call0_v5 : StableHlo.TRef sig ⟨S100000x64, .f32⟩) select,
    StableHlo.TRef.nullary (.of main_call0_cst_1 : StableHlo.TRef sig ⟨S_, .f32⟩) (constant S_ .f32 0xFF800000#32),
    StableHlo.TRef.unary (.of main_call0_cst_1 : StableHlo.TRef sig ⟨S_, .f32⟩) (.of main_call0_v6 : StableHlo.TRef sig ⟨S100000x64, .f32⟩) (broadcastInDim S100000x64 ![] bcast_S_S100000x64),
    StableHlo.TRef.binary (.of main_call0_v5 : StableHlo.TRef sig ⟨S100000x64, .f32⟩) (.of main_call0_v6 : StableHlo.TRef sig ⟨S100000x64, .f32⟩) (.of main_call0_v7 : StableHlo.TRef sig ⟨S100000x64, .i1⟩) (cmpf .oeq),
    StableHlo.TRef.nullary (.of main_call0_cst_2 : StableHlo.TRef sig ⟨S_, .f32⟩) (constant S_ .f32 0xFF7FFFFF#32),
    StableHlo.TRef.unary (.of main_call0_cst_2 : StableHlo.TRef sig ⟨S_, .f32⟩) (.of main_call0_call2_v0 : StableHlo.TRef sig ⟨S100000x64, .f32⟩) (broadcastInDim S100000x64 ![] bcast_S_S100000x64),
    StableHlo.TRef.ternary (.of main_call0_v7 : StableHlo.TRef sig ⟨S100000x64, .i1⟩) (.of main_call0_call2_v0 : StableHlo.TRef sig ⟨S100000x64, .f32⟩) (.of main_call0_v5 : StableHlo.TRef sig ⟨S100000x64, .f32⟩) (.of main_v4 : StableHlo.TRef sig ⟨S100000x64, .f32⟩) select ]
theorem ops1_sub : (ops1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub ..⟩

/-- The first graph convolution: neighbour sums, the degree, the mean, the two products, the bias, the rectifier. -/
abbrev ops2 : List (HloOp τ sig (Elt F)) :=
  [ StableHlo.nullary main_c (constantI S_ 32 0#32),
    StableHlo.unary main_c main_v5 (broadcastInDim S1200000 ![] bcast_S_S1200000 : (⟨S_, .i32⟩ : BufTy).Contents (Elt F) → (⟨S1200000, .i32⟩ : BufTy).Contents (Elt F)),
    StableHlo.binary main_v1 main_v5 main_v6 (cmpi .slt : (⟨S1200000, .i32⟩ : BufTy).Contents (Elt F) → (⟨S1200000, .i32⟩ : BufTy).Contents (Elt F) → (⟨S1200000, .i1⟩ : BufTy).Contents (Elt F)),
    StableHlo.nullary main_c_0 (constantI S_ 32 100000#32),
    StableHlo.unary main_c_0 main_v7 (broadcastInDim S1200000 ![] bcast_S_S1200000 : (⟨S_, .i32⟩ : BufTy).Contents (Elt F) → (⟨S1200000, .i32⟩ : BufTy).Contents (Elt F)),
    StableHlo.binary main_v1 main_v7 main_v8 (addi : (⟨S1200000, .i32⟩ : BufTy).Contents (Elt F) → (⟨S1200000, .i32⟩ : BufTy).Contents (Elt F) → (⟨S1200000, .i32⟩ : BufTy).Contents (Elt F)),
    StableHlo.ternary main_v6 main_v8 main_v1 main_v9 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v9 main_v10 (broadcastInDim S1200000x1 ![0] bcast_S1200000_S1200000x1_0 : (⟨S1200000, .i32⟩ : BufTy).Contents (Elt F) → (⟨S1200000x1, .i32⟩ : BufTy).Contents (Elt F)),
    StableHlo.binary main_v4 main_v10 main_v11 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_1 (constant S_ .f32 0x00000000#32),
    StableHlo.unary main_cst_1 main_v12 (broadcastInDim S100000x64 ![] bcast_S_S100000x64 : (⟨S_, .f32⟩ : BufTy).Contents (Elt F) → (⟨S100000x64, .f32⟩ : BufTy).Contents (Elt F)),
    StableHlo.unary main_v3 main_v13 (broadcastInDim S1200000x1 ![0] bcast_S1200000_S1200000x1_0 : (⟨S1200000, .i32⟩ : BufTy).Contents (Elt F) → (⟨S1200000x1, .i32⟩ : BufTy).Contents (Elt F)),
    StableHlo.ternary main_v12 main_v13 main_v11 main_v14 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.nullary main_cst_2 (constant S_ .f32 0x3F800000#32),
    StableHlo.unary main_cst_2 main_v15 (broadcastInDim S1200000 ![] bcast_S_S1200000 : (⟨S_, .f32⟩ : BufTy).Contents (Elt F) → (⟨S1200000, .f32⟩ : BufTy).Contents (Elt F)),
    StableHlo.nullary main_cst_3 (constant S_ .f32 0x00000000#32),
    StableHlo.unary main_cst_3 main_v16 (broadcastInDim S100000 ![] bcast_S_S100000 : (⟨S_, .f32⟩ : BufTy).Contents (Elt F) → (⟨S100000, .f32⟩ : BufTy).Contents (Elt F)),
    StableHlo.unary main_v3 main_v17 (broadcastInDim S1200000x1 ![0] bcast_S1200000_S1200000x1_0 : (⟨S1200000, .i32⟩ : BufTy).Contents (Elt F) → (⟨S1200000x1, .i32⟩ : BufTy).Contents (Elt F)),
    StableHlo.ternary main_v16 main_v17 main_v15 main_v18 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_4 (constant S_ .f32 0x3F800000#32),
    StableHlo.unary main_cst_4 main_v19 (broadcastInDim S100000 ![] bcast_S_S100000 : (⟨S_, .f32⟩ : BufTy).Contents (Elt F) → (⟨S100000, .f32⟩ : BufTy).Contents (Elt F)),
    StableHlo.binary main_v18 main_v19 main_v20 (maximumf : (⟨S100000, .f32⟩ : BufTy).Contents (Elt F) → (⟨S100000, .f32⟩ : BufTy).Contents (Elt F) → (⟨S100000, .f32⟩ : BufTy).Contents (Elt F)),
    StableHlo.unary main_v20 main_v21 (broadcastInDim S100000x1 ![0] bcast_S100000_S100000x1_0 : (⟨S100000, .f32⟩ : BufTy).Contents (Elt F) → (⟨S100000x1, .f32⟩ : BufTy).Contents (Elt F)),
    StableHlo.unary main_v21 main_v22 (broadcastInDim S100000x64 ![0, 1] bcast_S100000x1_S100000x64_0_1 : (⟨S100000x1, .f32⟩ : BufTy).Contents (Elt F) → (⟨S100000x64, .f32⟩ : BufTy).Contents (Elt F)),
    StableHlo.binary main_v14 main_v22 main_v23 (Host.divf : (⟨S100000x64, .f32⟩ : BufTy).Contents (Elt F) → (⟨S100000x64, .f32⟩ : BufTy).Contents (Elt F) → (⟨S100000x64, .f32⟩ : BufTy).Contents (Elt F)),
    StableHlo.binary main_v23 main_arg2 main_v24 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg3 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v24 main_v26 main_v27 (addf : (⟨S100000x64, .f32⟩ : BufTy).Contents (Elt F) → (⟨S100000x64, .f32⟩ : BufTy).Contents (Elt F) → (⟨S100000x64, .f32⟩ : BufTy).Contents (Elt F)),
    StableHlo.binary main_v4 main_arg4 main_v28 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v27 main_v28 main_v29 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x64, .f32⟩) (broadcastInDim S100000x64 ![] bcast_S_S100000x64),
    StableHlo.TRef.binary (.of main_v29 : StableHlo.TRef sig ⟨S100000x64, .f32⟩) (.of main_call1_v0 : StableHlo.TRef sig ⟨S100000x64, .f32⟩) (.of main_v30 : StableHlo.TRef sig ⟨S100000x64, .f32⟩) maximumf ]
theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub ..⟩

/-- The second layer's neighbour sums and degree. -/
abbrev ops3 : List (HloOp τ sig (Elt F)) :=
  [ StableHlo.nullary main_c_5 (constantI S_ 32 0#32),
    StableHlo.unary main_c_5 main_v31 (broadcastInDim S1200000 ![] bcast_S_S1200000 : (⟨S_, .i32⟩ : BufTy).Contents (Elt F) → (⟨S1200000, .i32⟩ : BufTy).Contents (Elt F)),
    StableHlo.binary main_v1 main_v31 main_v32 (cmpi .slt : (⟨S1200000, .i32⟩ : BufTy).Contents (Elt F) → (⟨S1200000, .i32⟩ : BufTy).Contents (Elt F) → (⟨S1200000, .i1⟩ : BufTy).Contents (Elt F)),
    StableHlo.nullary main_c_6 (constantI S_ 32 100000#32),
    StableHlo.unary main_c_6 main_v33 (broadcastInDim S1200000 ![] bcast_S_S1200000 : (⟨S_, .i32⟩ : BufTy).Contents (Elt F) → (⟨S1200000, .i32⟩ : BufTy).Contents (Elt F)),
    StableHlo.binary main_v1 main_v33 main_v34 (addi : (⟨S1200000, .i32⟩ : BufTy).Contents (Elt F) → (⟨S1200000, .i32⟩ : BufTy).Contents (Elt F) → (⟨S1200000, .i32⟩ : BufTy).Contents (Elt F)),
    StableHlo.ternary main_v32 main_v34 main_v1 main_v35 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    StableHlo.unary main_v35 main_v36 (broadcastInDim S1200000x1 ![0] bcast_S1200000_S1200000x1_0 : (⟨S1200000, .i32⟩ : BufTy).Contents (Elt F) → (⟨S1200000x1, .i32⟩ : BufTy).Contents (Elt F)),
    StableHlo.binary main_v30 main_v36 main_v37 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    StableHlo.nullary main_cst_7 (constant S_ .f32 0x00000000#32),
    StableHlo.unary main_cst_7 main_v38 (broadcastInDim S100000x64 ![] bcast_S_S100000x64 : (⟨S_, .f32⟩ : BufTy).Contents (Elt F) → (⟨S100000x64, .f32⟩ : BufTy).Contents (Elt F)),
    StableHlo.unary main_v3 main_v39 (broadcastInDim S1200000x1 ![0] bcast_S1200000_S1200000x1_0 : (⟨S1200000, .i32⟩ : BufTy).Contents (Elt F) → (⟨S1200000x1, .i32⟩ : BufTy).Contents (Elt F)),
    StableHlo.ternary main_v38 main_v39 main_v37 main_v40 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    StableHlo.nullary main_cst_8 (constant S_ .f32 0x3F800000#32),
    StableHlo.unary main_cst_8 main_v41 (broadcastInDim S1200000 ![] bcast_S_S1200000 : (⟨S_, .f32⟩ : BufTy).Contents (Elt F) → (⟨S1200000, .f32⟩ : BufTy).Contents (Elt F)),
    StableHlo.nullary main_cst_9 (constant S_ .f32 0x00000000#32),
    StableHlo.unary main_cst_9 main_v42 (broadcastInDim S100000 ![] bcast_S_S100000 : (⟨S_, .f32⟩ : BufTy).Contents (Elt F) → (⟨S100000, .f32⟩ : BufTy).Contents (Elt F)),
    StableHlo.unary main_v3 main_v43 (broadcastInDim S1200000x1 ![0] bcast_S1200000_S1200000x1_0 : (⟨S1200000, .i32⟩ : BufTy).Contents (Elt F) → (⟨S1200000x1, .i32⟩ : BufTy).Contents (Elt F)),
    StableHlo.ternary main_v42 main_v43 main_v41 main_v44 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    StableHlo.nullary main_cst_10 (constant S_ .f32 0x3F800000#32),
    StableHlo.unary main_cst_10 main_v45 (broadcastInDim S100000 ![] bcast_S_S100000 : (⟨S_, .f32⟩ : BufTy).Contents (Elt F) → (⟨S100000, .f32⟩ : BufTy).Contents (Elt F)),
    StableHlo.binary main_v44 main_v45 main_v46 (maximumf : (⟨S100000, .f32⟩ : BufTy).Contents (Elt F) → (⟨S100000, .f32⟩ : BufTy).Contents (Elt F) → (⟨S100000, .f32⟩ : BufTy).Contents (Elt F)) ]
theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub ..⟩

/-- The second convolution, its rectifier, the final projection with its bias, and the reshape to a vector. -/
abbrev ops4 : List (HloOp τ sig (Elt F)) :=
  [ StableHlo.unary main_v46 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v40 main_v48 main_v49 (Host.divf : (⟨S100000x64, .f32⟩ : BufTy).Contents (Elt F) → (⟨S100000x64, .f32⟩ : BufTy).Contents (Elt F) → (⟨S100000x64, .f32⟩ : BufTy).Contents (Elt F)),
    StableHlo.binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)),
    StableHlo.binary main_v30 main_arg7 main_v54 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v53 main_v54 main_v55 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S100000x64, .f32⟩) (broadcastInDim S100000x64 ![] bcast_S_S100000x64),
    StableHlo.TRef.binary (.of main_v55 : StableHlo.TRef sig ⟨S100000x64, .f32⟩) (.of main_call2_v0 : StableHlo.TRef sig ⟨S100000x64, .f32⟩) (.of main_v56 : StableHlo.TRef sig ⟨S100000x64, .f32⟩) maximumf,
    StableHlo.binary main_v56 main_arg8 main_v57 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg9 main_v58 (broadcastInDim S1x1 ![1] bcast_S1_S1x1_1 : (⟨S1, .f32⟩ : BufTy).Contents (Elt F) → (⟨S1x1, .f32⟩ : BufTy).Contents (Elt F)),
    StableHlo.unary main_v58 main_v59 (broadcastInDim S100000x1 ![0, 1] bcast_S1x1_S100000x1_0_1 : (⟨S1x1, .f32⟩ : BufTy).Contents (Elt F) → (⟨S100000x1, .f32⟩ : BufTy).Contents (Elt F)),
    StableHlo.binary main_v57 main_v59 main_v60 (addf : (⟨S100000x1, .f32⟩ : BufTy).Contents (Elt F) → (⟨S100000x1, .f32⟩ : BufTy).Contents (Elt F) → (⟨S100000x1, .f32⟩ : BufTy).Contents (Elt F)),
    StableHlo.reshape main_v60 main_v61 rfl shapeCasts_S100000x1_S100000 ]
theorem ops4_sub : (ops4 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.reshape_bufs_sub ..⟩

end Cert.ReferenceIdeal.RefRun

end
-- ==== Proof.RefRun.lean ====
/-
  The reference program's run.

  The entry function is the sequence of the listed operations (its outlined functions unfolded at their calls), so every
  weakly fair execution terminates with each buffer at the fold of the list over the launch memory.
-/
import proofs.«130286_j79912161509825_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole list. -/
abbrev ops : List (HloOp τ sig (Elt F)) := ops1 ++ (ops2 ++ (ops3 ++ ops4))

set_option maxRecDepth 8192 in
set_option maxHeartbeats 4000000 in
/-- The first sixty statements, the called functions written out, are the first three lists in sequence. -/
theorem main_part0_eq (c : Dev nD) : main_part0 (F := F) c = seq (ops1 ++ (ops2 ++ ops3)) := by
  simp only [main_part0, fn_nan_to_num.body, fn_where.body, fn_where_0.body, fn_relu.body, seq, bind_assoc, pure_bind]
  rfl

set_option maxRecDepth 8192 in
set_option maxHeartbeats 4000000 in
/-- The remaining statements are the fourth list in sequence. -/
theorem main_part1_eq (c : Dev nD) : main_part1 (F := F) c = seq ops4 := by
  simp only [main_part1, fn_relu.body, seq, bind_assoc, pure_bind]

/-- The entry function is the sequence of the whole list. -/
theorem main_eq (c : Dev nD) : main (F := F) c = seq ops := by
  show (do main_part0 (F := F) c; main_part1 (F := F) c) = _
  rw [main_part0_eq, main_part1_eq, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops1_sub op h, List.forall_iff_forall_mem.mp ops2_sub op h,
      List.forall_iff_forall_mem.mp ops3_sub op h, List.forall_iff_forall_mem.mp ops4_sub op h]

/-- Every weakly fair execution terminates, and every TensorCore buffer ends at the fold of the list over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's result as a function of its arguments.

  The operation list is read one stretch at a time: the first leaves the two edge rows and the cleaned features; the second
  the first layer's output; the third the second layer's neighbour sums and clipped degree; the fourth the result.  A
  buffer that a stretch does not write keeps its contents through it.  Composed, the result buffer ends at `Fns.out` of the
  argument arrays, and no argument array is ever written.
-/
import proofs.«130286_j79912161509825_1_alg».proof.Proof.RefRun
import proofs.«130286_j79912161509825_1_alg».proof.Proof.RefFns
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The first stretch -/

set_option maxRecDepth 8192 in
set_option maxHeartbeats 4000000 in
theorem s1_v1 (V : Valuation τ sig (Elt F)) :
    after ops1 V (Proc.devRef .tc main_v1) = Fns.edgeRow0 (V (Proc.devRef .tc main_arg1)) := by
  after_results_simp
  rfl

set_option maxRecDepth 8192 in
set_option maxHeartbeats 4000000 in
theorem s1_v3 (V : Valuation τ sig (Elt F)) :
    after ops1 V (Proc.devRef .tc main_v3) = Fns.edgeRow1 (V (Proc.devRef .tc main_arg1)) := by
  after_results_simp
  rfl

set_option maxRecDepth 8192 in
set_option maxHeartbeats 4000000 in
theorem s1_v4 (V : Valuation τ sig (Elt F)) :
    after ops1 V (Proc.devRef .tc main_v4) = Fns.clean (V (Proc.devRef .tc main_arg0)) := by
  after_results_simp
  rfl

set_option maxRecDepth 8192 in
set_option maxHeartbeats 4000000 in
theorem s1_kept (V : Valuation τ sig (Elt F)) :
    after ops1 V (Proc.devRef .tc main_arg0) = V (Proc.devRef .tc main_arg0)
      ∧ after ops1 V (Proc.devRef .tc main_arg1) = V (Proc.devRef .tc main_arg1)
      ∧ after ops1 V (Proc.devRef .tc main_arg2) = V (Proc.devRef .tc main_arg2)
      ∧ after ops1 V (Proc.devRef .tc main_arg3) = V (Proc.devRef .tc main_arg3)
      ∧ after ops1 V (Proc.devRef .tc main_arg4) = V (Proc.devRef .tc main_arg4)
      ∧ after ops1 V (Proc.devRef .tc main_arg5) = V (Proc.devRef .tc main_arg5)
      ∧ after ops1 V (Proc.devRef .tc main_arg6) = V (Proc.devRef .tc main_arg6)
      ∧ after ops1 V (Proc.devRef .tc main_arg7) = V (Proc.devRef .tc main_arg7)
      ∧ after ops1 V (Proc.devRef .tc main_arg8) = V (Proc.devRef .tc main_arg8)
      ∧ after ops1 V (Proc.devRef .tc main_arg9) = V (Proc.devRef .tc main_arg9) := by
  refine ⟨?_, ?_, ?_, ?_, ?_, ?_, ?_, ?_, ?_, ?_⟩ <;> after_results_simp

/-! ## The second stretch -/

set_option maxRecDepth 8192 in
set_option maxHeartbeats 8000000 in
theorem s2_v30 (V : Valuation τ sig (Elt F)) :
    after ops2 V (Proc.devRef .tc main_v30)
      = Fns.layerOf (Fns.aggr (V (Proc.devRef .tc main_v4)) (V (Proc.devRef .tc main_v1)) (V (Proc.devRef .tc main_v3)))
          (Fns.deg (V (Proc.devRef .tc main_v3))) (V (Proc.devRef .tc main_v4)) (V (Proc.devRef .tc main_arg2))
          (V (Proc.devRef .tc main_arg3)) (V (Proc.devRef .tc main_arg4)) := by
  after_results_simp
  rfl

set_option maxRecDepth 8192 in
set_option maxHeartbeats 8000000 in
theorem s2_kept (V : Valuation τ sig (Elt F)) :
    after ops2 V (Proc.devRef .tc main_arg0) = V (Proc.devRef .tc main_arg0)
      ∧ after ops2 V (Proc.devRef .tc main_arg1) = V (Proc.devRef .tc main_arg1)
      ∧ after ops2 V (Proc.devRef .tc main_arg2) = V (Proc.devRef .tc main_arg2)
      ∧ after ops2 V (Proc.devRef .tc main_arg3) = V (Proc.devRef .tc main_arg3)
      ∧ after ops2 V (Proc.devRef .tc main_arg4) = V (Proc.devRef .tc main_arg4)
      ∧ after ops2 V (Proc.devRef .tc main_arg5) = V (Proc.devRef .tc main_arg5)
      ∧ after ops2 V (Proc.devRef .tc main_arg6) = V (Proc.devRef .tc main_arg6)
      ∧ after ops2 V (Proc.devRef .tc main_arg7) = V (Proc.devRef .tc main_arg7)
      ∧ after ops2 V (Proc.devRef .tc main_arg8) = V (Proc.devRef .tc main_arg8)
      ∧ after ops2 V (Proc.devRef .tc main_arg9) = V (Proc.devRef .tc main_arg9)
      ∧ after ops2 V (Proc.devRef .tc main_v1) = V (Proc.devRef .tc main_v1)
      ∧ after ops2 V (Proc.devRef .tc main_v3) = V (Proc.devRef .tc main_v3) := by
  refine ⟨?_, ?_, ?_, ?_, ?_, ?_, ?_, ?_, ?_, ?_, ?_, ?_⟩ <;> after_results_simp

/-! ## The third stretch -/

set_option maxRecDepth 8192 in
set_option maxHeartbeats 4000000 in
theorem s3_v40 (V : Valuation τ sig (Elt F)) :
    after ops3 V (Proc.devRef .tc main_v40)
      = Fns.aggr (V (Proc.devRef .tc main_v30)) (V (Proc.devRef .tc main_v1)) (V (Proc.devRef .tc main_v3)) := by
  after_results_simp
  rfl

set_option maxRecDepth 8192 in
set_option maxHeartbeats 4000000 in
theorem s3_v46 (V : Valuation τ sig (Elt F)) :
    after ops3 V (Proc.devRef .tc main_v46) = Fns.deg (V (Proc.devRef .tc main_v3)) := by
  after_results_simp
  rfl

set_option maxRecDepth 8192 in
set_option maxHeartbeats 4000000 in
theorem s3_kept (V : Valuation τ sig (Elt F)) :
    after ops3 V (Proc.devRef .tc main_arg0) = V (Proc.devRef .tc main_arg0)
      ∧ after ops3 V (Proc.devRef .tc main_arg1) = V (Proc.devRef .tc main_arg1)
      ∧ after ops3 V (Proc.devRef .tc main_arg2) = V (Proc.devRef .tc main_arg2)
      ∧ after ops3 V (Proc.devRef .tc main_arg3) = V (Proc.devRef .tc main_arg3)
      ∧ after ops3 V (Proc.devRef .tc main_arg4) = V (Proc.devRef .tc main_arg4)
      ∧ after ops3 V (Proc.devRef .tc main_arg5) = V (Proc.devRef .tc main_arg5)
      ∧ after ops3 V (Proc.devRef .tc main_arg6) = V (Proc.devRef .tc main_arg6)
      ∧ after ops3 V (Proc.devRef .tc main_arg7) = V (Proc.devRef .tc main_arg7)
      ∧ after ops3 V (Proc.devRef .tc main_arg8) = V (Proc.devRef .tc main_arg8)
      ∧ after ops3 V (Proc.devRef .tc main_arg9) = V (Proc.devRef .tc main_arg9)
      ∧ after ops3 V (Proc.devRef .tc main_v30) = V (Proc.devRef .tc main_v30) := by
  refine ⟨?_, ?_, ?_, ?_, ?_, ?_, ?_, ?_, ?_, ?_, ?_⟩ <;> after_results_simp

/-! ## The fourth stretch -/

set_option maxRecDepth 8192 in
set_option maxHeartbeats 4000000 in
theorem s4_v61 (V : Valuation τ sig (Elt F)) :
    after ops4 V (Proc.devRef .tc main_v61)
      = Fns.tailOf (V (Proc.devRef .tc main_v40)) (V (Proc.devRef .tc main_v46)) (V (Proc.devRef .tc main_v30))
          (V (Proc.devRef .tc main_arg5)) (V (Proc.devRef .tc main_arg6)) (V (Proc.devRef .tc main_arg7))
          (V (Proc.devRef .tc main_arg8)) (V (Proc.devRef .tc main_arg9)) := by
  after_results_simp
  rfl

set_option maxRecDepth 8192 in
set_option maxHeartbeats 4000000 in
theorem s4_kept (V : Valuation τ sig (Elt F)) :
    after ops4 V (Proc.devRef .tc main_arg0) = V (Proc.devRef .tc main_arg0)
      ∧ after ops4 V (Proc.devRef .tc main_arg1) = V (Proc.devRef .tc main_arg1)
      ∧ after ops4 V (Proc.devRef .tc main_arg2) = V (Proc.devRef .tc main_arg2)
      ∧ after ops4 V (Proc.devRef .tc main_arg3) = V (Proc.devRef .tc main_arg3)
      ∧ after ops4 V (Proc.devRef .tc main_arg4) = V (Proc.devRef .tc main_arg4)
      ∧ after ops4 V (Proc.devRef .tc main_arg5) = V (Proc.devRef .tc main_arg5)
      ∧ after ops4 V (Proc.devRef .tc main_arg6) = V (Proc.devRef .tc main_arg6)
      ∧ after ops4 V (Proc.devRef .tc main_arg7) = V (Proc.devRef .tc main_arg7)
      ∧ after ops4 V (Proc.devRef .tc main_arg8) = V (Proc.devRef .tc main_arg8)
      ∧ after ops4 V (Proc.devRef .tc main_arg9) = V (Proc.devRef .tc main_arg9) := by
  refine ⟨?_, ?_, ?_, ?_, ?_, ?_, ?_, ?_, ?_, ?_⟩ <;> after_results_simp

/-! ## Composed -/

theorem after_ops (V : Valuation τ sig (Elt F)) : after ops V = after ops4 (after ops3 (after ops2 (after ops1 V))) := by
  simp only [ops, after_append]

/-- The result buffer after the whole list. -/
theorem out_eq (V : Valuation τ sig (Elt F)) :
    after ops V (Proc.devRef .tc main_v61)
      = Fns.out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  obtain ⟨-, -, a2, a3, a4, a5, a6, a7, a8, a9⟩ := s1_kept V
  obtain ⟨-, -, -, -, -, b5, b6, b7, b8, b9, bv1, bv3⟩ := s2_kept (after ops1 V)
  obtain ⟨-, -, -, -, -, c5, c6, c7, c8, c9, cv30⟩ := s3_kept (after ops2 (after ops1 V))
  rw [after_ops, s4_v61, s3_v40, s3_v46, cv30, c5, c6, c7, c8, c9, s2_v30, bv1, bv3, b5, b6, b7, b8, b9,
    s1_v1, s1_v3, s1_v4, a2, a3, a4, a5, a6, a7, a8, a9]
  rfl

/-- No argument array is written. -/
theorem args_kept (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5)
      ∧ after ops V (Proc.devRef .tc main_arg6) = V (Proc.devRef .tc main_arg6)
      ∧ after ops V (Proc.devRef .tc main_arg7) = V (Proc.devRef .tc main_arg7)
      ∧ after ops V (Proc.devRef .tc main_arg8) = V (Proc.devRef .tc main_arg8)
      ∧ after ops V (Proc.devRef .tc main_arg9) = V (Proc.devRef .tc main_arg9) := by
  obtain ⟨a0, a1, a2, a3, a4, a5, a6, a7, a8, a9⟩ := s1_kept V
  obtain ⟨b0, b1, b2, b3, b4, b5, b6, b7, b8, b9, -, -⟩ := s2_kept (after ops1 V)
  obtain ⟨c0, c1, c2, c3, c4, c5, c6, c7, c8, c9, -⟩ := s3_kept (after ops2 (after ops1 V))
  obtain ⟨d0, d1, d2, d3, d4, d5, d6, d7, d8, d9⟩ := s4_kept (after ops3 (after ops2 (after ops1 V)))
  rw [after_ops]
  exact ⟨d0.trans (c0.trans (b0.trans a0)), d1.trans (c1.trans (b1.trans a1)), d2.trans (c2.trans (b2.trans a2)),
    d3.trans (c3.trans (b3.trans a3)), d4.trans (c4.trans (b4.trans a4)), d5.trans (c5.trans (b5.trans a5)),
    d6.trans (c6.trans (b6.trans a6)), d7.trans (c7.trans (b7.trans a7)), d8.trans (c8.trans (b8.trans a8)),
    d9.trans (c9.trans (b9.trans a9))⟩

/-- Every weakly fair execution of the reference terminates with the result at `Fns.out` of the argument arrays and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = Fns.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨a0, a1, a2, a3, a4, a5, a6, a7, a8, a9⟩ := args_kept (launchContents m c)
      exact ⟨(h c main_v61).trans (out_eq (launchContents m c)),
        (h c main_arg0).trans a0, (h c main_arg1).trans a1, (h c main_arg2).trans a2, (h c main_arg3).trans a3,
        (h c main_arg4).trans a4, (h c main_arg5).trans a5, (h c main_arg6).trans a6, (h c main_arg7).trans a7,
        (h c main_arg8).trans a8, (h c main_arg9).trans a9⟩)
    (run_all m ρ)

end Cert.ReferenceIdeal.RefRun

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibHostAffine.lean ====
/-
  A host affine layer and a host relu on the extended reals, read at an entry.

  jnp writes  y @ W + b  as a `dot_general` of an [n, K] by a [K, N] matrix plus the bias vector [N] laid along the rows by
  two broadcasts ([N] to [1, N] to [n, N]); read at (p, q) that is  Σ_k y(p, k) · W(k, q) + b(q).  And  maximum(y, 0.0)  is a
  `maximum` against the scalar zero broadcast to y's shape; read at an index it is  max (y i) 0.  Nothing here mentions a
  program: the product's record is taken in its literal plain form.
-/
import proofs.«130286_j79912161509825_1_alg».proof.Proof.LibPlainMatmul
import proofs.«130286_j79912161509825_1_alg».proof.Proof.LibVecBcast

noncomputable section

namespace Cert.HostAffine

open Idealize.ShloMosaic Idealize.ShloMosaic.ValueIdx

/-- Entry (p, q) of  y @ W + b  on the host:  Σ_k y(p, k) · W(k, q) + b(q). -/
theorem affine_apply {n K N : ℕ} {φ₁ φ₂ : FTy}
    (wf : DotDims.WF (⟨2, ![n, K]⟩ : Shape) (⟨2, ![K, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (y : FVec Ideal (⟨2, ![n, K]⟩ : Shape) φ₁) (W : FVec Ideal (⟨2, ![K, N]⟩ : Shape) φ₂)
    (b : FVec Ideal (⟨1, ![N]⟩ : Shape) .f32) (p : Fin n) (q : Fin N) :
    addf (Host.dotGeneral (Cert.PlainMatmul.plain wf) none y W)
        (broadcastInDim ⟨2, ![n, N]⟩ ![0, 1] h2 (broadcastInDim ⟨2, ![1, N]⟩ ![1] h1 b)) (ix2 p q)
      = (∑ k : Fin K, y (ix2 p k) * W (ix2 k q)) + b (ix1 q) := by
  rw [addf_apply, Cert.VecBcast.rowVec_bcast_apply]
  exact congrArg (· + b (ix1 q)) (Cert.PlainMatmul.dotGeneral_apply wf none .single y W p q)

/-- maximum(y, 0.0) on the host at an index:  max (y i) 0. -/
theorem relu_apply {s : Shape} (h : (⟨0, ![]⟩ : Shape).BroadcastsInDim s ![]) (y : FVec Ideal s .f32) (i : s.Idx) :
    maximumf y (broadcastInDim s ![] h (constant (F := Ideal) ⟨0, ![]⟩ .f32 0x00000000#32)) i = max (y i) 0 := by
  rw [maximumf_apply, broadcastInDim_apply ![] h _ i ix0 (fun a => a.elim0), constant_apply, Ideal.ofBits_zero_f32]

end Cert.HostAffine

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.Bridge.lean ====
/-
  The two programs compute one function.

  Per node n and column q, the kernel program's layer is  max( Σ_k (A(n,k)·(1/D_n))·Wl(k,q) + Σ_k X(n,k)·Wr(k,q) + b_q , 0 )
  and the reference's is  max( (Σ_k (A(n,k)/D_n)·Wl(k,q) + b_q) + Σ_k X(n,k)·Wr(k,q) , 0 ),  with A the neighbour sums and
  D_n = max(count_n, 1) the clipped in-degree.  The divisor is never zero, so the quotient is the product with the
  reciprocal; and the three summands may be added in either order.  The projection  Σ_k h(n,k)·Wfc(k,0) + bfc_0  is the
  same sum in both, the kernel's read off the transposed projection row.  Nothing is asked of the inputs.
-/
import proofs.«130286_j79912161509825_1_alg».proof.Proof.KValue
import proofs.«130286_j79912161509825_1_alg».proof.Proof.RefFns
import proofs.«130286_j79912161509825_1_alg».proof.Proof.LibHostAffine
import proofs.«130286_j79912161509825_1_alg».proof.Proof.LibRowVector
import Idealize.ShloMosaic.Lib.IdealHost
import Idealize.ShloMosaic.Lib.ValueLayout

noncomputable section

open scoped BigOperators

namespace Cert.Bridge

open Cert.ReferenceIdeal Cert.ReferenceIdeal.Gen Idealize.ShloMosaic Idealize.ShloMosaic.ValueIdx
open Cert.KernelIdeal (KBlocks.G1 KBlocks.G2 KHost.scaled KHost.recipCol KHost.recip KPay.rowOf KValue.kerOut)

/-- The all-ones vector reads one. -/
theorem ones_apply (n : Fin 100000) : (Fns.ones (F := Ideal)) (ix1 n) = 1 := by
  unfold Fns.ones
  rw [broadcastInDim_apply ![] bcast_S_S100000 _ (ix1 n) ix0 (fun a => a.elim0), constant_apply]
  exact Ideal.ofBits_one_f32

/-- The clipped degree is never zero. -/
theorem deg_ne_zero (d : (⟨S1200000, .i32⟩ : BufTy).Contents (Elt Ideal)) (n : Fin 100000) : Fns.deg d (ix1 n) ≠ 0 := by
  unfold Fns.deg
  rw [maximumf_apply, ones_apply]
  generalize Fns.cnt d (ix1 n) = c
  exact Sage.clip_ne_zero c

/-- The reciprocal of the clipped degree, at a node. -/
theorem recip_apply (d : (⟨S1200000, .i32⟩ : BufTy).Contents (Elt Ideal)) (n : Fin 100000) :
    KHost.recip d (ix1 n) = Ideal.div 1 (Fns.deg d (ix1 n)) := by
  unfold KHost.recip
  rw [hostDivf_apply, ones_apply]

/-- The mean, either way: the neighbour sum times the reciprocal column is the neighbour sum divided by the degree. -/
theorem mean_apply (A : (⟨S100000x64, .f32⟩ : BufTy).Contents (Elt Ideal)) (d : (⟨S1200000, .i32⟩ : BufTy).Contents (Elt Ideal))
    (n : Fin 100000) (k : Fin 64) :
    KHost.scaled A (KHost.recipCol d) (ix2 n k) = Host.divf (F := Ideal) (φ := .f32) A (Fns.colBc (Fns.deg d)) (ix2 n k) := by
  have e1 : (broadcastInDim S100000x64 ![0, 1] bcast_S100000x1_S100000x64_0_1
      (broadcastInDim S100000x1 ![0] bcast_S100000_S100000x1_0 (KHost.recip (F := Ideal) d))) (ix2 n k) = KHost.recip d (ix1 n) :=
    Cert.VecBcast.colVec_bcast_apply bcast_S100000_S100000x1_0 bcast_S100000x1_S100000x64_0_1 (KHost.recip d) n k
  have e2 : Fns.colBc (Fns.deg d) (ix2 n k) = Fns.deg d (ix1 n) :=
    Cert.VecBcast.colVec_bcast_apply bcast_S100000_S100000x1_0 bcast_S100000x1_S100000x64_0_1 (Fns.deg d) n k
  have hM := deg_ne_zero d n
  unfold KHost.scaled KHost.recipCol
  rw [mulf_apply, e1, recip_apply, hostDivf_apply, e2]
  generalize Fns.deg d (ix1 n) = M at hM ⊢
  generalize A (ix2 n k) = a
  exact (Sage.div_eq_mul_recip a M hM).symm

/-- One layer: the kernel's array-level function is the reference's. -/
theorem layer_eq (A X : (⟨S100000x64, .f32⟩ : BufTy).Contents (Elt Ideal)) (d : (⟨S1200000, .i32⟩ : BufTy).Contents (Elt Ideal))
    (Wl : (⟨S64x64, .f32⟩ : BufTy).Contents (Elt Ideal)) (b : (⟨S64, .f32⟩ : BufTy).Contents (Elt Ideal))
    (Wr : (⟨S64x64, .f32⟩ : BufTy).Contents (Elt Ideal)) :
    KBlocks.G1 (KHost.scaled A (KHost.recipCol d)) X Wl (shapeCast S1x64 b Cert.KernelIdeal.Gen.shapeCasts_S64_S1x64) Wr
      = Fns.layerOf A (Fns.deg d) X Wl b Wr := by
  funext i
  obtain ⟨n, q, rfl⟩ : ∃ (n : Fin 100000) (q : Fin 64), i = ix2 n q := ⟨i 0, i 1, eq_ix2 i⟩
  show Sage.conv (KPay.rowOf (KHost.scaled A (KHost.recipCol d)) n) (KPay.rowOf X n) Wl Wr
      (KPay.rowOf (shapeCast S1x64 b Cert.KernelIdeal.Gen.shapeCasts_S64_S1x64) 0) q = _
  rw [Sage.conv_eq_biasFirst]
  unfold Fns.layerOf Fns.relu Fns.rowBc
  rw [Cert.HostAffine.relu_apply, addf_apply]
  have hA := Cert.HostAffine.affine_apply (φ₁ := .f32) (φ₂ := .f32) dot_S100000x64_S64x64_S100000x64_1_0_0_1_n_n_wf
    bcast_S64_S1x64_1 bcast_S1x64_S100000x64_0_1 (Host.divf (F := Ideal) (φ := .f32) A (Fns.colBc (Fns.deg d))) Wl b n q
  have hX := Cert.PlainMatmul.dotGeneral_apply (φ₁ := .f32) (φ₂ := .f32) dot_S100000x64_S64x64_S100000x64_1_0_0_1_n_n_wf
    none .single X Wr n q
  have hb : KPay.rowOf (shapeCast S1x64 b Cert.KernelIdeal.Gen.shapeCasts_S64_S1x64) 0 q = b (ix1 q) :=
    Cert.RowVector.shapeCast_b_1b_apply b Cert.KernelIdeal.Gen.shapeCasts_S64_S1x64 0 q
  have hm : (∑ k : Fin 64, KPay.rowOf (KHost.scaled A (KHost.recipCol d)) n k * Wl (ix2 k q))
      = ∑ k : Fin 64, Host.divf (F := Ideal) (φ := .f32) A (Fns.colBc (Fns.deg d)) (ix2 n k) * Wl (ix2 k q) :=
    Finset.sum_congr rfl fun k _ => congrArg (· * Wl (ix2 k q)) (mean_apply A d n k)
  refine congrArg (fun z => max z 0) ?_
  refine congrArg₂ (· + ·) ?_ hX.symm
  rw [hb, hm]
  exact hA.symm

/-- The second layer and the projection: the kernel's array-level function, flattened, is the reference's. -/
theorem tail_eq (A H : (⟨S100000x64, .f32⟩ : BufTy).Contents (Elt Ideal)) (d : (⟨S1200000, .i32⟩ : BufTy).Contents (Elt Ideal))
    (Wl : (⟨S64x64, .f32⟩ : BufTy).Contents (Elt Ideal)) (b : (⟨S64, .f32⟩ : BufTy).Contents (Elt Ideal))
    (Wr : (⟨S64x64, .f32⟩ : BufTy).Contents (Elt Ideal)) (Wfc : (⟨S64x1, .f32⟩ : BufTy).Contents (Elt Ideal))
    (bfc : (⟨S1, .f32⟩ : BufTy).Contents (Elt Ideal)) :
    shapeCast S100000
        (KBlocks.G2 (KHost.scaled A (KHost.recipCol d)) H Wl (shapeCast S1x64 b Cert.KernelIdeal.Gen.shapeCasts_S64_S1x64) Wr
          (transpose S1x64 [1, 0] Wfc Cert.KernelIdeal.Gen.transposes_S64x1_S1x64_1_0) (shapeCast S1x1 bfc Cert.KernelIdeal.Gen.shapeCasts_S1_S1x1))
        shapeCasts_S100000x1_S100000
      = Fns.tailOf A (Fns.deg d) H Wl b Wr Wfc bfc := by
  unfold Fns.tailOf
  refine congrArg (fun z => shapeCast S100000 z shapeCasts_S100000x1_S100000) ?_
  funext i
  obtain ⟨n, u, rfl⟩ : ∃ (n : Fin 100000) (u : Fin 1), i = ix2 n u := ⟨i 0, i 1, eq_ix2 i⟩
  obtain rfl : u = 0 := Subsingleton.elim u 0
  have hA := Cert.HostAffine.affine_apply (φ₁ := .f32) (φ₂ := .f32) dot_S100000x64_S64x1_S100000x1_1_0_0_1_n_n_wf
    bcast_S1_S1x1_1 bcast_S1x1_S100000x1_0_1 (Fns.layerOf A (Fns.deg d) H Wl b Wr) Wfc bfc n 0
  refine Eq.trans ?_ hA.symm
  show Sage.proj (Sage.conv (KPay.rowOf (KHost.scaled A (KHost.recipCol d)) n) (KPay.rowOf H n) Wl Wr
        (KPay.rowOf (shapeCast S1x64 b Cert.KernelIdeal.Gen.shapeCasts_S64_S1x64) 0))
      (KPay.rowOf (transpose S1x64 [1, 0] Wfc Cert.KernelIdeal.Gen.transposes_S64x1_S1x64_1_0) 0)
      ((shapeCast S1x1 bfc Cert.KernelIdeal.Gen.shapeCasts_S1_S1x1) (ix2 (0 : Fin 1) (0 : Fin 1))) = _
  unfold Sage.proj
  have hb : (shapeCast S1x1 bfc Cert.KernelIdeal.Gen.shapeCasts_S1_S1x1) (ix2 (0 : Fin 1) (0 : Fin 1)) = bfc (ix1 (0 : Fin 1)) :=
    Cert.RowVector.shapeCast_b_1b_apply bfc Cert.KernelIdeal.Gen.shapeCasts_S1_S1x1 0 0
  have hs : (∑ k : Fin 64, Sage.conv (KPay.rowOf (KHost.scaled A (KHost.recipCol d)) n) (KPay.rowOf H n) Wl Wr
        (KPay.rowOf (shapeCast S1x64 b Cert.KernelIdeal.Gen.shapeCasts_S64_S1x64) 0) k
        * KPay.rowOf (transpose S1x64 [1, 0] Wfc Cert.KernelIdeal.Gen.transposes_S64x1_S1x64_1_0) 0 k)
      = ∑ k : Fin 64, Fns.layerOf A (Fns.deg d) H Wl b Wr (ix2 n k) * Wfc (ix2 k (0 : Fin 1)) :=
    Finset.sum_congr rfl fun k _ => congrArg₂ (· * ·) (congrFun (layer_eq A H d Wl b Wr) (ix2 n k))
      (transpose_ix2_apply Wfc Cert.KernelIdeal.Gen.transposes_S64x1_S1x64_1_0 0 k)
  rw [hb, hs]

/-- The kernel program's result function is the reference's. -/
theorem out_eq (x : (⟨S100000x64, .f32⟩ : BufTy).Contents (Elt Ideal)) (e : (⟨S2x1200000, .i32⟩ : BufTy).Contents (Elt Ideal))
    (W1l : (⟨S64x64, .f32⟩ : BufTy).Contents (Elt Ideal)) (b1 : (⟨S64, .f32⟩ : BufTy).Contents (Elt Ideal))
    (W1r W2l : (⟨S64x64, .f32⟩ : BufTy).Contents (Elt Ideal)) (b2 : (⟨S64, .f32⟩ : BufTy).Contents (Elt Ideal))
    (W2r : (⟨S64x64, .f32⟩ : BufTy).Contents (Elt Ideal)) (Wfc : (⟨S64x1, .f32⟩ : BufTy).Contents (Elt Ideal))
    (bfc : (⟨S1, .f32⟩ : BufTy).Contents (Elt Ideal)) :
    KValue.kerOut x e W1l b1 W1r W2l b2 W2r Wfc bfc = Fns.out x e W1l b1 W1r W2l b2 W2r Wfc bfc := by
  unfold KValue.kerOut Fns.out
  dsimp only
  rw [layer_eq]
  exact tail_eq _ _ _ _ _ _ _ _

end Cert.Bridge

end
-- ==== Proof.lean ====
/-
  A two-layer GraphSAGE network with a final projection, as a Pallas program against its jnp reference.

  Both programs clean the features, split the edge array into sources and targets, and for each layer gather the source
  rows, add them up at their targets, and combine the result with the clipped in-degree into a mean.  The reference divides
  the neighbour sums by the degree and computes  relu(mean·Wl + b + x·Wr)  with host matrix products; the kernel program
  multiplies the sums by the reciprocal of the degree (computed once) and hands the mean to a row-block kernel that computes
  relu(mean·Wl + x·Wr + b)  twenty blocks of 5000 rows at a time, the second kernel also contracting each row with the
  projection column and adding the scalar bias.  On the extended reals the two are one function of the arguments: the
  degree is clipped below at one, so dividing by it is multiplying by its reciprocal, and the three summands of a layer may be
  added in any order (`Cert.Bridge.out_eq`); no finiteness of the inputs is used.

  The kernel program's run is the chain of its host stretches and its two kernel regions with the result buffer named at
  the last boundary (`KRun`); each region's output array is one function of the arrays it finds (`KBlocks`, over the body's
  stored value read entry by entry in `KPay`); the host stretches are read in `KHost` and everything is composed in
  `KValue`.  The reference's run is the sequence of its listed operations (`RefOps`, `RefRun`), read stretch by stretch in
  `RefValue` against the functions of `RefFns`.  The idealization rewrote nothing, so there is nothing to preserve.
-/
import proofs.«130286_j79912161509825_1_alg».proof.Defs
import proofs.«130286_j79912161509825_1_alg».proof.Proof.Gen.Kernel
import proofs.«130286_j79912161509825_1_alg».proof.Proof.Gen.Kernel.Skeleton
import proofs.«130286_j79912161509825_1_alg».proof.Proof.Gen.Kernel.Launch
import proofs.«130286_j79912161509825_1_alg».proof.Proof.Gen.Kernel.Points
import proofs.«130286_j79912161509825_1_alg».proof.Proof.Gen.Kernel.Frame
import proofs.«130286_j79912161509825_1_alg».proof.Proof.Gen.KernelIdeal
import proofs.«130286_j79912161509825_1_alg».proof.Proof.Gen.KernelIdeal.Skeleton
import proofs.«130286_j79912161509825_1_alg».proof.Proof.Gen.KernelIdeal.Launch
import proofs.«130286_j79912161509825_1_alg».proof.Proof.Gen.KernelIdeal.Points
import proofs.«130286_j79912161509825_1_alg».proof.Proof.Gen.KernelIdeal.Frame
import proofs.«130286_j79912161509825_1_alg».proof.Proof.Gen.ReferenceIdeal
import proofs.«130286_j79912161509825_1_alg».proof.Proof.Gen.Pre_finite_inputs
import proofs.«130286_j79912161509825_1_alg».proof.Proof.KValue
import proofs.«130286_j79912161509825_1_alg».proof.Proof.RefValue
import proofs.«130286_j79912161509825_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments both programs end with the same result, entry by entry. -/
theorem algebraic : Cert.algebraic_KernelIdeal_ReferenceIdeal := by
  intro m ρ m' ρ' _ hagree
  refine ⟨fun c => Cert.KernelIdeal.KValue.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]
  exact (Cert.Bridge.out_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
